-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S320x16 : S_.BroadcastsInDim S320x16 (![] : Fin 0 → Fin S320x16.rank)
  reducesTo_S320x16_S_d0_1 : S320x16.ReducesTo [0, 1] S_
  bcast_S_S4096x12288 : S_.BroadcastsInDim S4096x12288 (![] : Fin 0 → Fin S4096x12288.rank)
  reducesTo_S4096x12288_S_d0_1 : S4096x12288.ReducesTo [0, 1] S_
  bcast_S_S4096x3 : S_.BroadcastsInDim S4096x3 (![] : Fin 0 → Fin S4096x3.rank)
  reducesTo_S4096x3_S_d0_1 : S4096x3.ReducesTo [0, 1] S_
  bcast_S_S81x4096 : S_.BroadcastsInDim S81x4096 (![] : Fin 0 → Fin S81x4096.rank)
  reducesTo_S81x4096_S_d0_1 : S81x4096.ReducesTo [0, 1] S_
  bcast_S_S81x1 : S_.BroadcastsInDim S81x1 (![] : Fin 0 → Fin S81x1.rank)
  reducesTo_S81x1_S_d0_1 : S81x1.ReducesTo [0, 1] S_

variable [Facts]

def fn_part1 {F : FTy → Type} [FloatOps F] (main_arg9 : FVec F S81x4096 .f32) (main_arg10 : FVec F S81x1 .f32) (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  let main_v19 : FVec F S81x4096 .f32 := Host.absf main_arg9
  let main_cst_6 : FVec F S_ .f32 := constant S_ .f32 0x7F800000#32
  let main_v20 : FVec F S81x4096 .f32 := broadcastInDim S81x4096 ![] bcast_S_S81x4096 main_cst_6
  let main_v21 : IVec S81x4096 1 := cmpf .olt main_v19 main_v20
  let main_c_7 : IVec S_ 1 := constantI S_ 1 1#1
  let main_v22 : IVec S_ 1 := (fun x v => Host.reduce IntOp.andi x v reducesTo_S81x4096_S_d0_1 h_S_) main_v21 main_c_7
  let main_v23 : IVec S_ 1 := andi main_v18 main_v22
  let main_v24 : FVec F S81x1 .f32 := Host.absf main_arg10
  let main_cst_8 : FVec F S_ .f32 := constant S_ .f32 0x7F800000#32
  let main_v25 : FVec F S81x1 .f32 := broadcastInDim S81x1 ![] bcast_S_S81x1 main_cst_8
  let main_v26 : IVec S81x1 1 := cmpf .olt main_v24 main_v25
  let main_c_9 : IVec S_ 1 := constantI S_ 1 1#1
  let main_v27 : IVec S_ 1 := (fun x v => Host.reduce IntOp.andi x v reducesTo_S81x1_S_d0_1 h_S_) main_v26 main_c_9
  let main_v28 : IVec S_ 1 := andi main_v23 main_v27
  main_v28

def fn {F : FTy → Type} [FloatOps F] (main_arg0 : IVec S2048 32) (main_arg1 : FVec F S2048x4096 .f32) (main_arg2 : IVec S2048 32) (main_arg3 : IVec S2048x3 32) (main_arg4 : IVec S2048 32) (main_arg5 : IVec S320x16 32) (main_arg6 : FVec F S320x16 .f32) (main_arg7 : FVec F S4096x12288 .f32) (main_arg8 : FVec F S4096x3 .f32) (main_arg9 : FVec F S81x4096 .f32) (main_arg10 : FVec F S81x1 .f32) : IVec S_ 1 :=
  let main_v0 : FVec F S2048x4096 .f32 := Host.absf main_arg1
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S320x16 .f32 := Host.absf main_arg6
  let main_cst_0 : FVec F S_ .f32 := constant S_ .f32 0x7F800000#32
  let main_v5 : FVec F S320x16 .f32 := broadcastInDim S320x16 ![] bcast_S_S320x16 main_cst_0
  let main_v6 : IVec S320x16 1 := cmpf .olt main_v4 main_v5
  let main_c_1 : IVec S_ 1 := constantI S_ 1 1#1
  let main_v7 : IVec S_ 1 := (fun x v => Host.reduce IntOp.andi x v reducesTo_S320x16_S_d0_1 h_S_) main_v6 main_c_1
  let main_v8 : IVec S_ 1 := andi main_v3 main_v7
  let main_v9 : FVec F S4096x12288 .f32 := Host.absf main_arg7
  let main_cst_2 : FVec F S_ .f32 := constant S_ .f32 0x7F800000#32
  let main_v10 : FVec F S4096x12288 .f32 := broadcastInDim S4096x12288 ![] bcast_S_S4096x12288 main_cst_2
  let main_v11 : IVec S4096x12288 1 := cmpf .olt main_v9 main_v10
  let main_c_3 : IVec S_ 1 := constantI S_ 1 1#1
  let main_v12 : IVec S_ 1 := (fun x v => Host.reduce IntOp.andi x v reducesTo_S4096x12288_S_d0_1 h_S_) main_v11 main_c_3
  let main_v13 : IVec S_ 1 := andi main_v8 main_v12
  let main_v14 : FVec F S4096x3 .f32 := Host.absf main_arg8
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_arg9 main_arg10 main_v13 main_v16
-- ==== Kernel.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S64x32x3 : Shape := ⟨3, ![64, 32, 3]⟩
abbrev S64x20x3 : Shape := ⟨3, ![64, 20, 3]⟩
abbrev S1280x3 : Shape := ⟨2, ![1280, 3]⟩
abbrev S64x32 : Shape := ⟨2, ![64, 32]⟩
abbrev S64x20 : Shape := ⟨2, ![64, 20]⟩
abbrev S1280 : Shape := ⟨1, ![1280]⟩
abbrev S2048x12288 : Shape := ⟨2, ![2048, 12288]⟩
abbrev S1024x1024 : Shape := ⟨2, ![1024, 1024]⟩
abbrev S1024x2048 : Shape := ⟨2, ![1024, 2048]⟩
abbrev S6144x4096 : Shape := ⟨2, ![6144, 4096]⟩
abbrev S6144 : Shape := ⟨1, ![6144]⟩
abbrev S1280x1 : Shape := ⟨2, ![1280, 1]⟩
abbrev S_ : Shape := ⟨0, ![]⟩
abbrev S4608 : Shape := ⟨1, ![4608]⟩
abbrev S4608x1 : Shape := ⟨2, ![4608, 1]⟩
abbrev S4608x2 : Shape := ⟨2, ![4608, 2]⟩
abbrev S4608x4096 : Shape := ⟨2, ![4608, 4096]⟩

abbrev nBuf : Space → Nat
  | .hbm => 113
  | .vmem => 7
  | .smem => 0
  | _ => 0

abbrev bufTy : (tb : Table) → Fin (tcTables nBuf tb) → BufTy
  | .hbm, ⟨0, _⟩ => ⟨S2048, .i32⟩
  | .hbm, ⟨1, _⟩ => ⟨S2048x4096, .f32⟩
  | .hbm, ⟨2, _⟩ => ⟨S2048, .i32⟩
  | .hbm, ⟨3, _⟩ => ⟨S2048x3, .i32⟩
  | .hbm, ⟨4, _⟩ => ⟨S2048, .i32⟩
  | .hbm, ⟨5, _⟩ => ⟨S320x16, .i32⟩
  | .hbm, ⟨6, _⟩ => ⟨S320x16, .f32⟩
  | .hbm, ⟨7, _⟩ => ⟨S4096x12288, .f32⟩
  | .hbm, ⟨8, _⟩ => ⟨S4096x3, .f32⟩
  | .hbm, ⟨9, _⟩ => ⟨S81x4096, .f32⟩
  | .hbm, ⟨10, _⟩ => ⟨S81x1, .f32⟩
  | .hbm, ⟨11, _⟩ => ⟨S64x32x3, .i32⟩
  | .hbm, ⟨12, _⟩ => ⟨S64x20x3, .i32⟩
  | .hbm, ⟨13, _⟩ => ⟨S1280x3, .i32⟩
  | .hbm, ⟨14, _⟩ => ⟨S64x32, .i32⟩
  | .hbm, ⟨15, _⟩ => ⟨S64x20, .i32⟩
  | .hbm, ⟨16, _⟩ => ⟨S1280, .i32⟩
  | .hbm, ⟨17, _⟩ => ⟨S2048x4096, .bf16⟩
  | .hbm, ⟨18, _⟩ => ⟨S4096x12288, .bf16⟩
  | .hbm, ⟨19, _⟩ => ⟨S2048x12288, .f32⟩
  | .hbm, ⟨20, _⟩ => ⟨S6144x4096, .f32⟩
  | .hbm, ⟨21, _⟩ => ⟨S4096x3, .bf16⟩
  | .hbm, ⟨22, _⟩ => ⟨S2048x3, .f32⟩
  | .hbm, ⟨23, _⟩ => ⟨S6144, .f32⟩
  | .hbm, ⟨24, _⟩ => ⟨S1280x1, .i32⟩
  | .hbm, ⟨25, _⟩ => ⟨S1280, .i32⟩
  | .hbm, ⟨26, _⟩ => ⟨S1280x1, .i32⟩
  | .hbm, ⟨27, _⟩ => ⟨S1280, .i32⟩
  | .hbm, ⟨28, _⟩ => ⟨S2048, .i32⟩
  | .hbm, ⟨29, _⟩ => ⟨S_, .i32⟩
  | .hbm, ⟨30, _⟩ => ⟨S1280, .i32⟩
  | .hbm, ⟨31, _⟩ => ⟨S1280, .i32⟩
  | .hbm, ⟨32, _⟩ => ⟨S_, .i32⟩
  | .hbm, ⟨33, _⟩ => ⟨S1280, .i32⟩
  | .hbm, ⟨34, _⟩ => ⟨S1280, .i32⟩
  | .hbm, ⟨35, _⟩ => ⟨S_, .i32⟩
  | .hbm, ⟨36, _⟩ => ⟨S1280, .i32⟩
  | .hbm, ⟨37, _⟩ => ⟨S1280, .i32⟩
  | .hbm, ⟨38, _⟩ => ⟨S_, .i32⟩
  | .hbm, ⟨39, _⟩ => ⟨S1280, .i32⟩
  | .hbm, ⟨40, _⟩ => ⟨S1280, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S4608, .i32⟩
  | .hbm, ⟨48, _⟩ => ⟨S_, .i32⟩
  | .hbm, ⟨49, _⟩ => ⟨S2048, .i32⟩
  | .hbm, ⟨50, _⟩ => ⟨S4608, .i32⟩
  | .hbm, ⟨51, _⟩ => ⟨S4608, .i32⟩
  | .hbm, ⟨52, _⟩ => ⟨S_, .i32⟩
  | .hbm, ⟨53, _⟩ => ⟨S4608, .i32⟩
  | .hbm, ⟨54, _⟩ => ⟨S4608, .i1⟩
  | .hbm, ⟨55, _⟩ => ⟨S_, .i32⟩
  | .hbm, ⟨56, _⟩ => ⟨S4608, .i32⟩
  | .hbm, ⟨57, _⟩ => ⟨S4608, .i32⟩
  | .hbm, ⟨58, _⟩ => ⟨S4608, .i32⟩
  | .hbm, ⟨59, _⟩ => ⟨S4608x1, .i32⟩
  | .hbm, ⟨60, _⟩ => ⟨S4608, .f32⟩
  | .hbm, ⟨61, _⟩ => ⟨S_, .i32⟩
  | .hbm, ⟨62, _⟩ => ⟨S4608, .i32⟩
  | .hbm, ⟨63, _⟩ => ⟨S4608, .i1⟩
  | .hbm, ⟨64, _⟩ => ⟨S_, .i32⟩
  | .hbm, ⟨65, _⟩ => ⟨S4608, .i32⟩
  | .hbm, ⟨66, _⟩ => ⟨S4608, .i32⟩
  | .hbm, ⟨67, _⟩ => ⟨S4608, .i32⟩
  | .hbm, ⟨68, _⟩ => ⟨S_, .i32⟩
  | .hbm, ⟨69, _⟩ => ⟨S4608, .i32⟩
  | .hbm, ⟨70, _⟩ => ⟨S4608, .i32⟩
  | .hbm, ⟨71, _⟩ => ⟨S4608x1, .i32⟩
  | .hbm, ⟨72, _⟩ => ⟨S4608x1, .i32⟩
  | .hbm, ⟨73, _⟩ => ⟨S4608x2, .i32⟩
  | .hbm, ⟨74, _⟩ => ⟨S4608, .f32⟩
  | .hbm, ⟨75, _⟩ => ⟨S4608, .f32⟩
  | .hbm, ⟨76, _⟩ => ⟨S4608, .f32⟩
  | .hbm, ⟨77, _⟩ => ⟨S4608, .f32⟩
  | .hbm, ⟨78, _⟩ => ⟨S_, .f32⟩
  | .hbm, ⟨79, _⟩ => ⟨S4608, .f32⟩
  | .hbm, ⟨80, _⟩ => ⟨S4608, .f32⟩
  | .hbm, ⟨81, _⟩ => ⟨S_, .f32⟩
  | .hbm, ⟨82, _⟩ => ⟨S4608, .f32⟩
  | .hbm, ⟨83, _⟩ => ⟨S4608, .f32⟩
  | .hbm, ⟨84, _⟩ => ⟨S4608x1, .f32⟩
  | .hbm, ⟨85, _⟩ => ⟨S_, .i32⟩
  | .hbm, ⟨86, _⟩ => ⟨S4608, .i32⟩
  | .hbm, ⟨87, _⟩ => ⟨S4608, .i1⟩
  | .hbm, ⟨88, _⟩ => ⟨S_, .i32⟩
  | .hbm, ⟨89, _⟩ => ⟨S4608, .i32⟩
  | .hbm, ⟨90, _⟩ => ⟨S4608, .i32⟩
  | .hbm, ⟨91, _⟩ => ⟨S4608, .i32⟩
  | .hbm, ⟨92, _⟩ => ⟨S4608x1, .i32⟩
  | .hbm, ⟨93, _⟩ => ⟨S4608x4096, .f32⟩
  | .hbm, ⟨94, _⟩ => ⟨S_, .i32⟩
  | .hbm, ⟨95, _⟩ => ⟨S4608, .i32⟩
  | .hbm, ⟨96, _⟩ => ⟨S4608, .i1⟩
  | .hbm, ⟨97, _⟩ => ⟨S_, .i32⟩
  | .hbm, ⟨98, _⟩ => ⟨S4608, .i32⟩
  | .hbm, ⟨99, _⟩ => ⟨S4608, .i32⟩
  | .hbm, ⟨100, _⟩ => ⟨S4608, .i32⟩
  | .hbm, ⟨101, _⟩ => ⟨S4608x1, .i32⟩
  | .hbm, ⟨102, _⟩ => ⟨S4608x4096, .f32⟩
  | .hbm, ⟨103, _⟩ => ⟨S4608x4096, .f32⟩
  | .hbm, ⟨104, _⟩ => ⟨S4608x4096, .f32⟩
  | .hbm, ⟨105, _⟩ => ⟨S4608x4096, .f32⟩
  | .hbm, ⟨106, _⟩ => ⟨S_, .f32⟩
  | .hbm, ⟨107, _⟩ => ⟨S2048x4096, .f32⟩
  | .hbm, ⟨108, _⟩ => ⟨S4608x1, .i32⟩
  | .hbm, ⟨109, _⟩ => ⟨S2048x4096, .f32⟩
  | .hbm, ⟨110, _⟩ => ⟨S_, .f32⟩
  | .hbm, ⟨111, _⟩ => ⟨S2048x4096, .f32⟩
  | .hbm, ⟨112, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call0_cst : Ref sig .tc := ⟨.hbm, 110, rfl⟩
abbrev main_call0_v0 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2048x3_S64x32x3 : S2048x3.ShapeCasts S64x32x3
  slices_S64x32x3_S64x20x3_0_0_0 : S64x32x3.Slices ![0, 0, 0] S64x20x3
  shapeCasts_S64x20x3_S1280x3 : S64x20x3.ShapeCasts S1280x3
  shapeCasts_S2048_S64x32 : S2048.ShapeCasts S64x32
  slices_S64x32_S64x20_0_0 : S64x32.Slices ![0, 0] S64x20
  shapeCasts_S64x20_S1280 : S64x20.ShapeCasts S1280
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x12288_S6144x4096 : S2048x12288.ShapeCasts S6144x4096
  shapeCasts_S2048x3_S6144 : S2048x3.ShapeCasts S6144
  slices_S1280x3_S1280x1_0_1 : S1280x3.Slices ![0, 1] S1280x1
  shapeCasts_S1280x1_S1280 : S1280x1.ShapeCasts S1280
  slices_S1280x3_S1280x1_0_2 : S1280x3.Slices ![0, 2] S1280x1
  bcast_S_S1280 : S_.BroadcastsInDim S1280 (![] : Fin 0 → Fin S1280.rank)
  bcast_S_S2048 : S_.BroadcastsInDim S2048 (![] : Fin 0 → Fin S2048.rank)
  concatenates_S1280_S1280_S2048_S4608_d0 : Shape.Concatenates [S1280, S1280, S2048] S4608 0
  bcast_S_S4608 : S_.BroadcastsInDim S4608 (![] : Fin 0 → Fin S4608.rank)
  bcast_S4608_S4608x1_0 : S4608.BroadcastsInDim S4608x1 (![0] : Fin 1 → Fin S4608x1.rank)
  concatenates_S4608x1_S4608x1_S4608x2_d1 : Shape.Concatenates [S4608x1, S4608x1] S4608x2 1
  bcast_S4608x1_S4608x4096_0_1 : S4608x1.BroadcastsInDim S4608x4096 (![0, 1] : Fin 2 → Fin S4608x4096.rank)
  bcast_S_S2048x4096 : S_.BroadcastsInDim S2048x4096 (![] : Fin 0 → Fin S2048x4096.rank)
  dot_S1024x1024_S1024x2048_S1024x2048_1_0_0_1_n_n_wf : DotDims.WF S1024x1024 S1024x2048 S1024x2048 [1] [0] [0] [1] [] []
  dot_S2048x4096_S4096x3_S2048x3_1_0_0_1_n_n_wf : DotDims.WF S2048x4096 S4096x3 S2048x3 [1] [0] [0] [1] [] []
  gather_S6144_S4608x1_S4608_n_0_n_n_0_1_1_wf : GatherDims.WF S6144 S4608x1 S4608 [] [0] [] [0] [] 1 ![1]
  gather_S81x1_S4608x2_S4608_n_01_n_n_01_1_11_wf : GatherDims.WF S81x1 S4608x2 S4608 [] [0, 1] [] [0, 1] [] 1 ![1, 1]
  gather_S6144x4096_S4608x1_S4608x4096_1_0_n_n_0_1_14096_wf : GatherDims.WF S6144x4096 S4608x1 S4608x4096 [1] [0] [] [0] [] 1 ![1, 4096]
  gather_S81x4096_S4608x1_S4608x4096_1_0_n_n_0_1_14096_wf : GatherDims.WF S81x4096 S4608x1 S4608x4096 [1] [0] [] [0] [] 1 ![1, 4096]
  scatter_S2048x4096_S4608x1_S4608x4096_1_0_0_1_wf : ScatterDims.WF S2048x4096 S4608x1 S4608x4096 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .bf16 = 32 ∨ (Rect.block (s := S2048x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x12288.size a
  hwx0_1 : ∀ i : grid0.Coords, EltTy.bits .bf16 = 32 ∨ (Rect.block (s := S4096x12288) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x12288.size a
  hwx0_2 : ∀ i : grid0.Coords, EltTy.bits .f32 = 32 ∨ (Rect.block (s := S2048x12288) S1024x2048.size (cc0_transform_2 i) (hinb0_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S2048x4096_S4096x3_S2048x3_1_0_0_1_n_n : DotDims S2048x4096 S4096x3 S2048x3 where
  lhsContracting := [1]
  rhsContracting := [0]
  lhsNonContracting := [0]
  rhsNonContracting := [1]
  lhsBatch := []
  rhsBatch := []
  wf := dot_S2048x4096_S4096x3_S2048x3_1_0_0_1_n_n_wf
def gather_S6144_S4608x1_S4608_n_0_n_n_0_1_1 : GatherDims S6144 S4608x1 S4608 where
  offsetDims := []
  collapsedSliceDims := [0]
  operandBatchingDims := []
  startIndicesBatchingDims := []
  startIndexMap := [0]
  indexVectorDim := 1
  sliceSizes := ![1]
  wf := gather_S6144_S4608x1_S4608_n_0_n_n_0_1_1_wf
def gather_S81x1_S4608x2_S4608_n_01_n_n_01_1_11 : GatherDims S81x1 S4608x2 S4608 where
  offsetDims := []
  collapsedSliceDims := [0, 1]
  operandBatchingDims := []
  startIndicesBatchingDims := []
  startIndexMap := [0, 1]
  indexVectorDim := 1
  sliceSizes := ![1, 1]
  wf := gather_S81x1_S4608x2_S4608_n_01_n_n_01_1_11_wf
def gather_S6144x4096_S4608x1_S4608x4096_1_0_n_n_0_1_14096 : GatherDims S6144x4096 S4608x1 S4608x4096 where
  offsetDims := [1]
  collapsedSliceDims := [0]
  operandBatchingDims := []
  startIndicesBatchingDims := []
  startIndexMap := [0]
  indexVectorDim := 1
  sliceSizes := ![1, 4096]
  wf := gather_S6144x4096_S4608x1_S4608x4096_1_0_n_n_0_1_14096_wf
def gather_S81x4096_S4608x1_S4608x4096_1_0_n_n_0_1_14096 : GatherDims S81x4096 S4608x1 S4608x4096 where
  offsetDims := [1]
  collapsedSliceDims := [0]
  operandBatchingDims := []
  startIndicesBatchingDims := []
  startIndexMap := [0]
  indexVectorDim := 1
  sliceSizes := ![1, 4096]
  wf := gather_S81x4096_S4608x1_S4608x4096_1_0_n_n_0_1_14096_wf
def scatter_S2048x4096_S4608x1_S4608x4096_1_0_0_1 : ScatterDims S2048x4096 S4608x1 S4608x4096 where
  updateWindowDims := [1]
  insertedWindowDims := [0]
  scatterDimsToOperandDims := [0]
  indexVectorDim := 1
  wf := scatter_S2048x4096_S4608x1_S4608x4096_1_0_0_1_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S64x32x3 : Shape := ⟨3, ![64, 32, 3]⟩
abbrev S64x20x3 : Shape := ⟨3, ![64, 20, 3]⟩
abbrev S1280x3 : Shape := ⟨2, ![1280, 3]⟩
abbrev S64x32 : Shape := ⟨2, ![64, 32]⟩
abbrev S64x20 : Shape := ⟨2, ![64, 20]⟩
abbrev S1280 : Shape := ⟨1, ![1280]⟩
abbrev S2048x12288 : Shape := ⟨2, ![2048, 12288]⟩
abbrev S6144x4096 : Shape := ⟨2, ![6144, 4096]⟩
abbrev S6144 : Shape := ⟨1, ![6144]⟩
abbrev S1280x1 : Shape := ⟨2, ![1280, 1]⟩
abbrev S_ : Shape := ⟨0, ![]⟩
abbrev S4608 : Shape := ⟨1, ![4608]⟩
abbrev S4608x1 : Shape := ⟨2, ![4608, 1]⟩
abbrev S4608x2 : Shape := ⟨2, ![4608, 2]⟩
abbrev S4608x4096 : Shape := ⟨2, ![4608, 4096]⟩

abbrev nBuf : Space → Nat
  | .hbm => 110
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x4096, .f32⟩
  | .hbm, ⟨2, _⟩ => ⟨S2048, .i32⟩
  | .hbm, ⟨3, _⟩ => ⟨S2048x3, .i32⟩
  | .hbm, ⟨4, _⟩ => ⟨S2048, .i32⟩
  | .hbm, ⟨5, _⟩ => ⟨S320x16, .i32⟩
  | .hbm, ⟨6, _⟩ => ⟨S320x16, .f32⟩
  | .hbm, ⟨7, _⟩ => ⟨S4096x12288, .f32⟩
  | .hbm, ⟨8, _⟩ => ⟨S4096x3, .f32⟩
  | .hbm, ⟨9, _⟩ => ⟨S81x4096, .f32⟩
  | .hbm, ⟨10, _⟩ => ⟨S81x1, .f32⟩
  | .hbm, ⟨11, _⟩ => ⟨S64x32x3, .i32⟩
  | .hbm, ⟨12, _⟩ => ⟨S64x20x3, .i32⟩
  | .hbm, ⟨13, _⟩ => ⟨S1280x3, .i32⟩
  | .hbm, ⟨14, _⟩ => ⟨S64x32, .i32⟩
  | .hbm, ⟨15, _⟩ => ⟨S64x20, .i32⟩
  | .hbm, ⟨16, _⟩ => ⟨S1280, .i32⟩
  | .hbm, ⟨17, _⟩ => ⟨S2048x12288, .f32⟩
  | .hbm, ⟨18, _⟩ => ⟨S6144x4096, .f32⟩
  | .hbm, ⟨19, _⟩ => ⟨S2048x3, .f32⟩
  | .hbm, ⟨20, _⟩ => ⟨S6144, .f32⟩
  | .hbm, ⟨21, _⟩ => ⟨S1280x1, .i32⟩
  | .hbm, ⟨22, _⟩ => ⟨S1280, .i32⟩
  | .hbm, ⟨23, _⟩ => ⟨S1280x1, .i32⟩
  | .hbm, ⟨24, _⟩ => ⟨S1280, .i32⟩
  | .hbm, ⟨25, _⟩ => ⟨S2048, .i32⟩
  | .hbm, ⟨26, _⟩ => ⟨S_, .i32⟩
  | .hbm, ⟨27, _⟩ => ⟨S1280, .i32⟩
  | .hbm, ⟨28, _⟩ => ⟨S1280, .i32⟩
  | .hbm, ⟨29, _⟩ => ⟨S_, .i32⟩
  | .hbm, ⟨30, _⟩ => ⟨S1280, .i32⟩
  | .hbm, ⟨31, _⟩ => ⟨S1280, .i32⟩
  | .hbm, ⟨32, _⟩ => ⟨S_, .i32⟩
  | .hbm, ⟨33, _⟩ => ⟨S1280, .i32⟩
  | .hbm, ⟨34, _⟩ => ⟨S1280, .i32⟩
  | .hbm, ⟨35, _⟩ => ⟨S_, .i32⟩
  | .hbm, ⟨36, _⟩ => ⟨S1280, .i32⟩
  | .hbm, ⟨37, _⟩ => ⟨S1280, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S4608, .i32⟩
  | .hbm, ⟨45, _⟩ => ⟨S_, .i32⟩
  | .hbm, ⟨46, _⟩ => ⟨S2048, .i32⟩
  | .hbm, ⟨47, _⟩ => ⟨S4608, .i32⟩
  | .hbm, ⟨48, _⟩ => ⟨S4608, .i32⟩
  | .hbm, ⟨49, _⟩ => ⟨S_, .i32⟩
  | .hbm, ⟨50, _⟩ => ⟨S4608, .i32⟩
  | .hbm, ⟨51, _⟩ => ⟨S4608, .i1⟩
  | .hbm, ⟨52, _⟩ => ⟨S_, .i32⟩
  | .hbm, ⟨53, _⟩ => ⟨S4608, .i32⟩
  | .hbm, ⟨54, _⟩ => ⟨S4608, .i32⟩
  | .hbm, ⟨55, _⟩ => ⟨S4608, .i32⟩
  | .hbm, ⟨56, _⟩ => ⟨S4608x1, .i32⟩
  | .hbm, ⟨57, _⟩ => ⟨S4608, .f32⟩
  | .hbm, ⟨58, _⟩ => ⟨S_, .i32⟩
  | .hbm, ⟨59, _⟩ => ⟨S4608, .i32⟩
  | .hbm, ⟨60, _⟩ => ⟨S4608, .i1⟩
  | .hbm, ⟨61, _⟩ => ⟨S_, .i32⟩
  | .hbm, ⟨62, _⟩ => ⟨S4608, .i32⟩
  | .hbm, ⟨63, _⟩ => ⟨S4608, .i32⟩
  | .hbm, ⟨64, _⟩ => ⟨S4608, .i32⟩
  | .hbm, ⟨65, _⟩ => ⟨S_, .i32⟩
  | .hbm, ⟨66, _⟩ => ⟨S4608, .i32⟩
  | .hbm, ⟨67, _⟩ => ⟨S4608, .i32⟩
  | .hbm, ⟨68, _⟩ => ⟨S4608x1, .i32⟩
  | .hbm, ⟨69, _⟩ => ⟨S4608x1, .i32⟩
  | .hbm, ⟨70, _⟩ => ⟨S4608x2, .i32⟩
  | .hbm, ⟨71, _⟩ => ⟨S4608, .f32⟩
  | .hbm, ⟨72, _⟩ => ⟨S4608, .f32⟩
  | .hbm, ⟨73, _⟩ => ⟨S4608, .f32⟩
  | .hbm, ⟨74, _⟩ => ⟨S4608, .f32⟩
  | .hbm, ⟨75, _⟩ => ⟨S_, .f32⟩
  | .hbm, ⟨76, _⟩ => ⟨S4608, .f32⟩
  | .hbm, ⟨77, _⟩ => ⟨S4608, .f32⟩
  | .hbm, ⟨78, _⟩ => ⟨S_, .f32⟩
  | .hbm, ⟨79, _⟩ => ⟨S4608, .f32⟩
  | .hbm, ⟨80, _⟩ => ⟨S4608, .f32⟩
  | .hbm, ⟨81, _⟩ => ⟨S4608x1, .f32⟩
  | .hbm, ⟨82, _⟩ => ⟨S_, .i32⟩
  | .hbm, ⟨83, _⟩ => ⟨S4608, .i32⟩
  | .hbm, ⟨84, _⟩ => ⟨S4608, .i1⟩
  | .hbm, ⟨85, _⟩ => ⟨S_, .i32⟩
  | .hbm, ⟨86, _⟩ => ⟨S4608, .i32⟩
  | .hbm, ⟨87, _⟩ => ⟨S4608, .i32⟩
  | .hbm, ⟨88, _⟩ => ⟨S4608, .i32⟩
  | .hbm, ⟨89, _⟩ => ⟨S4608x1, .i32⟩
  | .hbm, ⟨90, _⟩ => ⟨S4608x4096, .f32⟩
  | .hbm, ⟨91, _⟩ => ⟨S_, .i32⟩
  | .hbm, ⟨92, _⟩ => ⟨S4608, .i32⟩
  | .hbm, ⟨93, _⟩ => ⟨S4608, .i1⟩
  | .hbm, ⟨94, _⟩ => ⟨S_, .i32⟩
  | .hbm, ⟨95, _⟩ => ⟨S4608, .i32⟩
  | .hbm, ⟨96, _⟩ => ⟨S4608, .i32⟩
  | .hbm, ⟨97, _⟩ => ⟨S4608, .i32⟩
  | .hbm, ⟨98, _⟩ => ⟨S4608x1, .i32⟩
  | .hbm, ⟨99, _⟩ => ⟨S4608x4096, .f32⟩
  | .hbm, ⟨100, _⟩ => ⟨S4608x4096, .f32⟩
  | .hbm, ⟨101, _⟩ => ⟨S4608x4096, .f32⟩
  | .hbm, ⟨102, _⟩ => ⟨S4608x4096, .f32⟩
  | .hbm, ⟨103, _⟩ => ⟨S_, .f32⟩
  | .hbm, ⟨104, _⟩ => ⟨S2048x4096, .f32⟩
  | .hbm, ⟨105, _⟩ => ⟨S4608x1, .i32⟩
  | .hbm, ⟨106, _⟩ => ⟨S2048x4096, .f32⟩
  | .hbm, ⟨107, _⟩ => ⟨S_, .f32⟩
  | .hbm, ⟨108, _⟩ => ⟨S2048x4096, .f32⟩
  | .hbm, ⟨109, _⟩ => ⟨S2048x4096, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call0_cst : Ref sig .tc := ⟨.hbm, 107, rfl⟩
abbrev main_call0_v0 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  shapeCasts_S2048x3_S64x32x3 : S2048x3.ShapeCasts S64x32x3
  slices_S64x32x3_S64x20x3_0_0_0 : S64x32x3.Slices ![0, 0, 0] S64x20x3
  shapeCasts_S64x20x3_S1280x3 : S64x20x3.ShapeCasts S1280x3
  shapeCasts_S2048_S64x32 : S2048.ShapeCasts S64x32
  slices_S64x32_S64x20_0_0 : S64x32.Slices ![0, 0] S64x20
  shapeCasts_S64x20_S1280 : S64x20.ShapeCasts S1280
  shapeCasts_S2048x12288_S6144x4096 : S2048x12288.ShapeCasts S6144x4096
  shapeCasts_S2048x3_S6144 : S2048x3.ShapeCasts S6144
  slices_S1280x3_S1280x1_0_1 : S1280x3.Slices ![0, 1] S1280x1
  shapeCasts_S1280x1_S1280 : S1280x1.ShapeCasts S1280
  slices_S1280x3_S1280x1_0_2 : S1280x3.Slices ![0, 2] S1280x1
  bcast_S_S1280 : S_.BroadcastsInDim S1280 (![] : Fin 0 → Fin S1280.rank)
  bcast_S_S2048 : S_.BroadcastsInDim S2048 (![] : Fin 0 → Fin S2048.rank)
  concatenates_S1280_S1280_S2048_S4608_d0 : Shape.Concatenates [S1280, S1280, S2048] S4608 0
  bcast_S_S4608 : S_.BroadcastsInDim S4608 (![] : Fin 0 → Fin S4608.rank)
  bcast_S4608_S4608x1_0 : S4608.BroadcastsInDim S4608x1 (![0] : Fin 1 → Fin S4608x1.rank)
  concatenates_S4608x1_S4608x1_S4608x2_d1 : Shape.Concatenates [S4608x1, S4608x1] S4608x2 1
  bcast_S4608x1_S4608x4096_0_1 : S4608x1.BroadcastsInDim S4608x4096 (![0, 1] : Fin 2 → Fin S4608x4096.rank)
  bcast_S_S2048x4096 : S_.BroadcastsInDim S2048x4096 (![] : Fin 0 → Fin S2048x4096.rank)
  dot_S2048x4096_S4096x12288_S2048x12288_1_0_0_1_n_n_wf : DotDims.WF S2048x4096 S4096x12288 S2048x12288 [1] [0] [0] [1] [] []
  dot_S2048x4096_S4096x3_S2048x3_1_0_0_1_n_n_wf : DotDims.WF S2048x4096 S4096x3 S2048x3 [1] [0] [0] [1] [] []
  gather_S6144_S4608x1_S4608_n_0_n_n_0_1_1_wf : GatherDims.WF S6144 S4608x1 S4608 [] [0] [] [0] [] 1 ![1]
  gather_S81x1_S4608x2_S4608_n_01_n_n_01_1_11_wf : GatherDims.WF S81x1 S4608x2 S4608 [] [0, 1] [] [0, 1] [] 1 ![1, 1]
  gather_S6144x4096_S4608x1_S4608x4096_1_0_n_n_0_1_14096_wf : GatherDims.WF S6144x4096 S4608x1 S4608x4096 [1] [0] [] [0] [] 1 ![1, 4096]
  gather_S81x4096_S4608x1_S4608x4096_1_0_n_n_0_1_14096_wf : GatherDims.WF S81x4096 S4608x1 S4608x4096 [1] [0] [] [0] [] 1 ![1, 4096]
  scatter_S2048x4096_S4608x1_S4608x4096_1_0_0_1_wf : ScatterDims.WF S2048x4096 S4608x1 S4608x4096 [1] [0] [0] 1

variable [Facts₀]

def dot_S2048x4096_S4096x12288_S2048x12288_1_0_0_1_n_n : DotDims S2048x4096 S4096x12288 S2048x12288 where
  lhsContracting := [1]
  rhsContracting := [0]
  lhsNonContracting := [0]
  rhsNonContracting := [1]
  lhsBatch := []
  rhsBatch := []
  wf := dot_S2048x4096_S4096x12288_S2048x12288_1_0_0_1_n_n_wf
def dot_S2048x4096_S4096x3_S2048x3_1_0_0_1_n_n : DotDims S2048x4096 S4096x3 S2048x3 where
  lhsContracting := [1]
  rhsContracting := [0]
  lhsNonContracting := [0]
  rhsNonContracting := [1]
  lhsBatch := []
  rhsBatch := []
  wf := dot_S2048x4096_S4096x3_S2048x3_1_0_0_1_n_n_wf
def gather_S6144_S4608x1_S4608_n_0_n_n_0_1_1 : GatherDims S6144 S4608x1 S4608 where
  offsetDims := []
  collapsedSliceDims := [0]
  operandBatchingDims := []
  startIndicesBatchingDims := []
  startIndexMap := [0]
  indexVectorDim := 1
  sliceSizes := ![1]
  wf := gather_S6144_S4608x1_S4608_n_0_n_n_0_1_1_wf
def gather_S81x1_S4608x2_S4608_n_01_n_n_01_1_11 : GatherDims S81x1 S4608x2 S4608 where
  offsetDims := []
  collapsedSliceDims := [0, 1]
  operandBatchingDims := []
  startIndicesBatchingDims := []
  startIndexMap := [0, 1]
  indexVectorDim := 1
  sliceSizes := ![1, 1]
  wf := gather_S81x1_S4608x2_S4608_n_01_n_n_01_1_11_wf
def gather_S6144x4096_S4608x1_S4608x4096_1_0_n_n_0_1_14096 : GatherDims S6144x4096 S4608x1 S4608x4096 where
  offsetDims := [1]
  collapsedSliceDims := [0]
  operandBatchingDims := []
  startIndicesBatchingDims := []
  startIndexMap := [0]
  indexVectorDim := 1
  sliceSizes := ![1, 4096]
  wf := gather_S6144x4096_S4608x1_S4608x4096_1_0_n_n_0_1_14096_wf
def gather_S81x4096_S4608x1_S4608x4096_1_0_n_n_0_1_14096 : GatherDims S81x4096 S4608x1 S4608x4096 where
  offsetDims := [1]
  collapsedSliceDims := [0]
  operandBatchingDims := []
  startIndicesBatchingDims := []
  startIndexMap := [0]
  indexVectorDim := 1
  sliceSizes := ![1, 4096]
  wf := gather_S81x4096_S4608x1_S4608x4096_1_0_n_n_0_1_14096_wf
def scatter_S2048x4096_S4608x1_S4608x4096_1_0_0_1 : ScatterDims S2048x4096 S4608x1 S4608x4096 where
  updateWindowDims := [1]
  insertedWindowDims := [0]
  scatterDimsToOperandDims := [0]
  indexVectorDim := 1
  wf := scatter_S2048x4096_S4608x1_S4608x4096_1_0_0_1_wf

class Facts : Prop extends Facts₀ where

variable [Facts]
-- ==== Proof.KBBase.lean ====
/-
  The host program around the pallas region, and what the region's windows hold.
  @main is: eight host lines (the relations and predicate classes cut to the first 20 of every 32 rows, the two matmul
  operands rounded to bf16), the region, ninety host lines and the three lines of the outlined positive part. The region's
  windows stage the arrays of those roundings (windows 0 and 1) and the product array (window 2); no argument array is a
  window's array and no host line writes an argument array, so every argument ends as launched.
-/
import proofs.«169880_j67190468378873_2_alg».proof.Proof.Gen.Kernel.Launch
import proofs.«169880_j67190468378873_2_alg».proof.Proof.Gen.Kernel.Skeleton
import proofs.«169880_j67190468378873_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 8000000 in
/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The lines after the region touch unscoped TensorCore buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The buffers the eight lines before the region write. -/
abbrev headW : List (Ref sig .tc) := [main_v0, main_v1, main_v2, main_v3, main_v4, main_v5, main_v6, main_v7]
/-- The buffers the lines after the region write. -/
abbrev tailW : List (Ref sig .tc) := [main_v9, main_v10, main_v11, main_v12, main_v13, main_v14, main_v15, main_v16, main_v17, main_c, main_v18, main_v19, main_c_0, main_v20, main_v21, main_c_1, main_v22, main_v23, main_c_2, main_v24, main_v25, main_c_3, main_v26, main_v27, main_c_4, main_v28, main_v29, main_v30, main_c_5, main_v31, main_v32, main_v33, main_c_6, main_v34, main_v35, main_c_7, main_v36, main_v37, main_v38, main_v39, main_v40, main_c_8, main_v41, main_v42, main_c_9, main_v43, main_v44, main_v45, main_c_10, main_v46, main_v47, main_v48, main_v49, main_v50, main_v51, main_v52, main_v53, main_v54, main_cst, main_v55, main_v56, main_cst_11, main_v57, main_v58, main_v59, main_c_12, main_v60, main_v61, main_c_13, main_v62, main_v63, main_v64, main_v65, main_v66, main_c_14, main_v67, main_v68, main_c_15, main_v69, main_v70, main_v71, main_v72, main_v73, main_v74, main_v75, main_v76, main_cst_16, main_v77, main_v78, main_v79, main_call0_cst, main_call0_v0, main_v80]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)
set_option maxHeartbeats 4000000 in
theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)
theorem hostOps1_1_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)

theorem head_writes : (List.flatten [hostOps0] : List (HloOp τ sig (Elt F))).Forall fun op => op.writes ⊆ (headW.map (Proc.devRef (τ := τ) .tc)).toFinset := by
  simp only [List.flatten_cons, List.flatten_nil, List.append_nil]; exact hostOps0_writes
theorem tail_writes : (List.flatten [hostOps1, hostOps1_1] : List (HloOp τ sig (Elt F))).Forall fun op => op.writes ⊆ (tailW.map (Proc.devRef (τ := τ) .tc)).toFinset := by
  refine List.forall_iff_forall_mem.mpr fun op hop => ?_
  simp only [List.flatten_cons, List.flatten_nil, List.append_nil, List.mem_append] at hop
  rcases hop with h | h
  · exact (List.forall_iff_forall_mem.mp hostOps1_writes) op h
  · exact (List.forall_iff_forall_mem.mp hostOps1_1_writes) op h

/-- And write no array of the pipeline: each writes its own result buffer, none of which is a window's array. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w hw
  have hmem : op ∈ (List.flatten [hostOps1, hostOps1_1] : List (HloOp τ sig (Elt F))) := by
    simp only [List.flatten_cons, List.flatten_nil, List.append_nil, List.mem_append]
    simp only [List.mem_cons, List.mem_nil_iff, or_false] at hops
    rcases hops with rfl | rfl
    · exact Or.inl hop
    · exact Or.inr hop
  obtain ⟨y, hy, he⟩ := List.mem_map.mp (List.mem_toFinset.mp ((List.forall_iff_forall_mem.mp tail_writes) op hmem hw))
  have : y = Pipeline.arrRef spec0 w := Proc.devRef_injective _ he
  subst this
  revert hy
  fin_cases w <;> decide

/-- A buffer that no host line writes and that is no window's array ends as launched. -/
theorem W_kept (dats : (p : Fin _) → (c : Dev nD) → Dat τ (Elt F) Unit ℕ (UR sig nD τ) ℕ (cfgs p) c) (c : Dev nD) (b : Ref sig .tc)
    (hT : b ∉ tailW) (hH : b ∉ headW) (hA : ∀ w, Pipeline.arrRef spec0 w ≠ b) :
    Pipeline.afterTail₀ cfgs dats 0 (V0 m) [hostOps1, hostOps1_1] c b = m ((c : Thread nD τ).loc b) := by
  unfold Pipeline.afterTail₀
  rw [StableHlo.after_of_writes_sub _ _ tail_writes hT, Pipeline.withArrays_of_ne _ c (V0 m c) _ b hA]
  exact StableHlo.after_of_writes_sub _ _ head_writes hH

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the eleven argument arrays (none is a window's array, none is
    written by a host line), to the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_kept m dats c main_arg0 (by decide) (by decide) (by decide)),
    ((h c).2 main_arg1 (Pipeline.mem_restRefs_of main_arg1 (by decide) (by decide))).trans (W_kept m dats c main_arg1 (by decide) (by decide) (by decide)),
    ((h c).2 main_arg2 (Pipeline.mem_restRefs_of main_arg2 (by decide) (by decide))).trans (W_kept m dats c main_arg2 (by decide) (by decide) (by decide)),
    ((h c).2 main_arg3 (Pipeline.mem_restRefs_of main_arg3 (by decide) (by decide))).trans (W_kept m dats c main_arg3 (by decide) (by decide) (by decide)),
    ((h c).2 main_arg4 (Pipeline.mem_restRefs_of main_arg4 (by decide) (by decide))).trans (W_kept m dats c main_arg4 (by decide) (by decide) (by decide)),
    ((h c).2 main_arg5 (Pipeline.mem_restRefs_of main_arg5 (by decide) (by decide))).trans (W_kept m dats c main_arg5 (by decide) (by decide) (by decide)),
    ((h c).2 main_arg6 (Pipeline.mem_restRefs_of main_arg6 (by decide) (by decide))).trans (W_kept m dats c main_arg6 (by decide) (by decide) (by decide)),
    ((h c).2 main_arg7 (Pipeline.mem_restRefs_of main_arg7 (by decide) (by decide))).trans (W_kept m dats c main_arg7 (by decide) (by decide) (by decide)),
    ((h c).2 main_arg8 (Pipeline.mem_restRefs_of main_arg8 (by decide) (by decide))).trans (W_kept m dats c main_arg8 (by decide) (by decide) (by decide)),
    ((h c).2 main_arg9 (Pipeline.mem_restRefs_of main_arg9 (by decide) (by decide))).trans (W_kept m dats c main_arg9 (by decide) (by decide) (by decide)),
    ((h c).2 main_arg10 (Pipeline.mem_restRefs_of main_arg10 (by decide) (by decide))).trans (W_kept m dats c main_arg10 (by decide) (by decide) (by decide))⟩) h

/-! ## The body's branch conditions -/

/-- The first conditional's condition: the grid's last coordinate is 0 (the accumulator is reset). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional's condition: the grid's last coordinate is 3 (the accumulator is copied to the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

/-- One staging buffer of the output window, through which its contents are stated. -/
abbrev VO0_2 : View sig .tc .vmem S1024x2048 .f32 := (Memref.whole cc0_stg2_0 : Memref sig .tc .vmem S1024x2048 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x2048 .f32 := Memref.whole cc0_scratch0
abbrev VS0_0 : View sig .tc .vmem S1024x2048 .f32 := scM0_0.view

/-- The region's class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KBRunA.lean ====
/-
  The kernel body run on whole staging memrefs, in the case where the grid's last coordinate is 0: the accumulator is reset to zero and receives the first block product; the output block is left untouched.
  The lists are what the body's stores leave (last store first) in the output block and in the accumulator.
-/
import proofs.«169880_j67190468378873_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1` to a state
    holding the inputs as they were, the output block untouched and the accumulator with its pieces written. -/
noncomputable def kernelRun0_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KBRunB.lean ====
/-
  The kernel body run on whole staging memrefs, in the case where the grid's last coordinate is 1 or 2: the accumulator receives one more block product; the output block is left untouched.
  The lists are what the body's stores leave (last store first) in the output block and in the accumulator.
-/
import proofs.«169880_j67190468378873_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1`, the accumulator at `xs0` to a state
    holding the inputs as they were, the output block untouched and the accumulator with its pieces written. -/
noncomputable def kernelRun0_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KBRunC.lean ====
/-
  The kernel body run on whole staging memrefs, in the case where the grid's last coordinate is 3: the accumulator receives the last block product and is copied into the output block.
  The lists are what the body's stores leave (last store first) in the output block and in the accumulator.
-/
import proofs.«169880_j67190468378873_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1`, the accumulator at `xs0` to a state
    holding the inputs as they were, the output block with its pieces written and the accumulator with its pieces written. -/
noncomputable def kernelRun0_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KBFrame.lean ====
/-
  The frame of the program: what the output block's staging buffer and the accumulator hold after each grid point, the
  pipeline's proof data, the body obligation at a generic point, the run of @main and the frame claim.
  The grid's 48 points go four at a time over one output block: the accumulator is reset and receives the first block
  product at a point ≡ 0 (mod 4), receives one more at the points ≡ 1, 2, and at a point ≡ 3 receives the last and is
  copied into the output block, which the pipeline writes back there and nowhere else.
-/
import proofs.«169880_j67190468378873_2_alg».proof.Proof.KBRunA
import proofs.«169880_j67190468378873_2_alg».proof.Proof.KBRunB
import proofs.«169880_j67190468378873_2_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first two cases the body stores nothing into the output block: a placeholder that nothing consults. -/
def out0_A_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) : Vec F S1024x2048 .f32 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) (y : S1024x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x2048.size (by sl_kernel_rfl) y
/-- What the first case leaves in the accumulator: its pieces read back. -/
def sout0_A_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) : Vec F S1024x2048 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) : Vec F S1024x2048 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) (y : S1024x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x2048.size (by sl_kernel_rfl) y
def sout0_B_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) : Vec F S1024x2048 .f32 :=
  VS0_0.read (Elt F) (VS0_0.writes (Elt F) VS0_0.junk (kernelRun0_B c i arg3 harg3 arg4 harg4 arg5 harg5 arg6 harg6 hc0 hc1 x0 x1 xs0).2.1)

/-- The last case's one store covers the output block. -/
theorem cover0_C_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) (y : S1024x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x2048.size (by sl_kernel_rfl) y
/-- What the last case leaves in the output block. -/
def out0_C_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) : Vec F S1024x2048 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) (y : S1024x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x2048.size (by sl_kernel_rfl) y
def sout0_C_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) : Vec F S1024x2048 .f32 :=
  VS0_0.read (Elt F) (VS0_0.writes (Elt F) VS0_0.junk (kernelRun0_C c i arg3 harg3 arg4 harg4 arg5 harg5 arg6 harg6 hc0 hc1 x0 x1 xs0).2.1)

/-! ## What the output block and the accumulator hold after each point -/

/-- After the body at position `n`: (the output block's staging buffer, the accumulator); the case is chosen by `n` mod 4, and
    a case that starts from the accumulator takes what position `n - 1` left in it. -/
def outsAt0 (c : Dev nD) : (n : ℕ) → n < cfg0.N → Vec F S1024x2048 .f32 × Vec F S1024x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything); afterwards the
    accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' memrefs hold their blocks; `t` mod 4 says which case the point is in; the invariant hands the
    body the accumulator at what the point before left (at anything at the very first point) and takes it back at this point's
    contents; where the output block is idle it is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option maxHeartbeats 16000000 in
set_option backward.isDefEq.respectTransparency.types false in
/-- Every weakly fair execution of @main terminates, every array of the pipeline at what the library computes from the proof data
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Hand

end
-- ==== Proof.KIBase.lean ====
/-
  The host program around the pallas region, and what the region's windows hold.
  @main is: eight host lines (the relations and predicate classes cut to the first 20 of every 32 rows, the two matmul
  operands rounded to bf16), the region, ninety host lines and the three lines of the outlined positive part. The region's
  windows stage the arrays of those roundings (windows 0 and 1) and the product array (window 2); no argument array is a
  window's array and no host line writes an argument array, so every argument ends as launched.
-/
import proofs.«169880_j67190468378873_2_alg».proof.Proof.Gen.KernelIdeal.Launch
import proofs.«169880_j67190468378873_2_alg».proof.Proof.Gen.KernelIdeal.Skeleton
import proofs.«169880_j67190468378873_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 8000000 in
/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The lines after the region touch unscoped TensorCore buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The buffers the eight lines before the region write. -/
abbrev headW : List (Ref sig .tc) := [main_v0, main_v1, main_v2, main_v3, main_v4, main_v5, main_v6, main_v7]
/-- The buffers the lines after the region write. -/
abbrev tailW : List (Ref sig .tc) := [main_v9, main_v10, main_v11, main_v12, main_v13, main_v14, main_v15, main_v16, main_v17, main_c, main_v18, main_v19, main_c_0, main_v20, main_v21, main_c_1, main_v22, main_v23, main_c_2, main_v24, main_v25, main_c_3, main_v26, main_v27, main_c_4, main_v28, main_v29, main_v30, main_c_5, main_v31, main_v32, main_v33, main_c_6, main_v34, main_v35, main_c_7, main_v36, main_v37, main_v38, main_v39, main_v40, main_c_8, main_v41, main_v42, main_c_9, main_v43, main_v44, main_v45, main_c_10, main_v46, main_v47, main_v48, main_v49, main_v50, main_v51, main_v52, main_v53, main_v54, main_cst, main_v55, main_v56, main_cst_11, main_v57, main_v58, main_v59, main_c_12, main_v60, main_v61, main_c_13, main_v62, main_v63, main_v64, main_v65, main_v66, main_c_14, main_v67, main_v68, main_c_15, main_v69, main_v70, main_v71, main_v72, main_v73, main_v74, main_v75, main_v76, main_cst_16, main_v77, main_v78, main_v79, main_call0_cst, main_call0_v0, main_v80]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)
set_option maxHeartbeats 4000000 in
theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)
theorem hostOps1_1_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes]
  repeat' apply And.intro
  all_goals exact single_sub (by decide)

theorem head_writes : (List.flatten [hostOps0] : List (HloOp τ sig (Elt F))).Forall fun op => op.writes ⊆ (headW.map (Proc.devRef (τ := τ) .tc)).toFinset := by
  simp only [List.flatten_cons, List.flatten_nil, List.append_nil]; exact hostOps0_writes
theorem tail_writes : (List.flatten [hostOps1, hostOps1_1] : List (HloOp τ sig (Elt F))).Forall fun op => op.writes ⊆ (tailW.map (Proc.devRef (τ := τ) .tc)).toFinset := by
  refine List.forall_iff_forall_mem.mpr fun op hop => ?_
  simp only [List.flatten_cons, List.flatten_nil, List.append_nil, List.mem_append] at hop
  rcases hop with h | h
  · exact (List.forall_iff_forall_mem.mp hostOps1_writes) op h
  · exact (List.forall_iff_forall_mem.mp hostOps1_1_writes) op h

/-- And write no array of the pipeline: each writes its own result buffer, none of which is a window's array. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w hw
  have hmem : op ∈ (List.flatten [hostOps1, hostOps1_1] : List (HloOp τ sig (Elt F))) := by
    simp only [List.flatten_cons, List.flatten_nil, List.append_nil, List.mem_append]
    simp only [List.mem_cons, List.mem_nil_iff, or_false] at hops
    rcases hops with rfl | rfl
    · exact Or.inl hop
    · exact Or.inr hop
  obtain ⟨y, hy, he⟩ := List.mem_map.mp (List.mem_toFinset.mp ((List.forall_iff_forall_mem.mp tail_writes) op hmem hw))
  have : y = Pipeline.arrRef spec0 w := Proc.devRef_injective _ he
  subst this
  revert hy
  fin_cases w <;> decide

/-- A buffer that no host line writes and that is no window's array ends as launched. -/
theorem W_kept (dats : (p : Fin _) → (c : Dev nD) → Dat τ (Elt F) Unit ℕ (UR sig nD τ) ℕ (cfgs p) c) (c : Dev nD) (b : Ref sig .tc)
    (hT : b ∉ tailW) (hH : b ∉ headW) (hA : ∀ w, Pipeline.arrRef spec0 w ≠ b) :
    Pipeline.afterTail₀ cfgs dats 0 (V0 m) [hostOps1, hostOps1_1] c b = m ((c : Thread nD τ).loc b) := by
  unfold Pipeline.afterTail₀
  rw [StableHlo.after_of_writes_sub _ _ tail_writes hT, Pipeline.withArrays_of_ne _ c (V0 m c) _ b hA]
  exact StableHlo.after_of_writes_sub _ _ head_writes hH

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the eleven argument arrays (none is a window's array, none is
    written by a host line), to the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_kept m dats c main_arg0 (by decide) (by decide) (by decide)),
    ((h c).2 main_arg1 (Pipeline.mem_restRefs_of main_arg1 (by decide) (by decide))).trans (W_kept m dats c main_arg1 (by decide) (by decide) (by decide)),
    ((h c).2 main_arg2 (Pipeline.mem_restRefs_of main_arg2 (by decide) (by decide))).trans (W_kept m dats c main_arg2 (by decide) (by decide) (by decide)),
    ((h c).2 main_arg3 (Pipeline.mem_restRefs_of main_arg3 (by decide) (by decide))).trans (W_kept m dats c main_arg3 (by decide) (by decide) (by decide)),
    ((h c).2 main_arg4 (Pipeline.mem_restRefs_of main_arg4 (by decide) (by decide))).trans (W_kept m dats c main_arg4 (by decide) (by decide) (by decide)),
    ((h c).2 main_arg5 (Pipeline.mem_restRefs_of main_arg5 (by decide) (by decide))).trans (W_kept m dats c main_arg5 (by decide) (by decide) (by decide)),
    ((h c).2 main_arg6 (Pipeline.mem_restRefs_of main_arg6 (by decide) (by decide))).trans (W_kept m dats c main_arg6 (by decide) (by decide) (by decide)),
    ((h c).2 main_arg7 (Pipeline.mem_restRefs_of main_arg7 (by decide) (by decide))).trans (W_kept m dats c main_arg7 (by decide) (by decide) (by decide)),
    ((h c).2 main_arg8 (Pipeline.mem_restRefs_of main_arg8 (by decide) (by decide))).trans (W_kept m dats c main_arg8 (by decide) (by decide) (by decide)),
    ((h c).2 main_arg9 (Pipeline.mem_restRefs_of main_arg9 (by decide) (by decide))).trans (W_kept m dats c main_arg9 (by decide) (by decide) (by decide)),
    ((h c).2 main_arg10 (Pipeline.mem_restRefs_of main_arg10 (by decide) (by decide))).trans (W_kept m dats c main_arg10 (by decide) (by decide) (by decide))⟩) h

/-! ## The body's branch conditions -/

/-- The first conditional's condition: the grid's last coordinate is 0 (the accumulator is reset). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional's condition: the grid's last coordinate is 3 (the accumulator is copied to the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

/-- One staging buffer of the output window, through which its contents are stated. -/
abbrev VO0_2 : View sig .tc .vmem S1024x2048 .f32 := (Memref.whole cc0_stg2_0 : Memref sig .tc .vmem S1024x2048 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x2048 .f32 := Memref.whole cc0_scratch0
abbrev VS0_0 : View sig .tc .vmem S1024x2048 .f32 := scM0_0.view

/-- The region's class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The kernel body run on whole staging memrefs, in the case where the grid's last coordinate is 0: the accumulator is reset to zero and receives the first block product; the output block is left untouched.
  The lists are what the body's stores leave (last store first) in the output block and in the accumulator.
-/
import proofs.«169880_j67190468378873_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1` to a state
    holding the inputs as they were, the output block untouched and the accumulator with its pieces written. -/
noncomputable def kernelRun0_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KIRunB.lean ====
/-
  The kernel body run on whole staging memrefs, in the case where the grid's last coordinate is 1 or 2: the accumulator receives one more block product; the output block is left untouched.
  The lists are what the body's stores leave (last store first) in the output block and in the accumulator.
-/
import proofs.«169880_j67190468378873_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1`, the accumulator at `xs0` to a state
    holding the inputs as they were, the output block untouched and the accumulator with its pieces written. -/
noncomputable def kernelRun0_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KIRunC.lean ====
/-
  The kernel body run on whole staging memrefs, in the case where the grid's last coordinate is 3: the accumulator receives the last block product and is copied into the output block.
  The lists are what the body's stores leave (last store first) in the output block and in the accumulator.
-/
import proofs.«169880_j67190468378873_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores as pieces, with the proof that the body runs from the inputs' blocks `x0`, `x1`, the accumulator at `xs0` to a state
    holding the inputs as they were, the output block with its pieces written and the accumulator with its pieces written. -/
noncomputable def kernelRun0_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KIFrame.lean ====
/-
  The frame of the program: what the output block's staging buffer and the accumulator hold after each grid point, the
  pipeline's proof data, the body obligation at a generic point, the run of @main and the frame claim.
  The grid's 48 points go four at a time over one output block: the accumulator is reset and receives the first block
  product at a point ≡ 0 (mod 4), receives one more at the points ≡ 1, 2, and at a point ≡ 3 receives the last and is
  copied into the output block, which the pipeline writes back there and nowhere else.
-/
import proofs.«169880_j67190468378873_2_alg».proof.Proof.KIRunA
import proofs.«169880_j67190468378873_2_alg».proof.Proof.KIRunB
import proofs.«169880_j67190468378873_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first two cases the body stores nothing into the output block: a placeholder that nothing consults. -/
def out0_A_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) : Vec F S1024x2048 .f32 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) (y : S1024x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x2048.size (by sl_kernel_rfl) y
/-- What the first case leaves in the accumulator: its pieces read back. -/
def sout0_A_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) : Vec F S1024x2048 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) : Vec F S1024x2048 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) (y : S1024x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x2048.size (by sl_kernel_rfl) y
def sout0_B_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) : Vec F S1024x2048 .f32 :=
  VS0_0.read (Elt F) (VS0_0.writes (Elt F) VS0_0.junk (kernelRun0_B c i arg3 harg3 arg4 harg4 arg5 harg5 arg6 harg6 hc0 hc1 x0 x1 xs0).2.1)

/-- The last case's one store covers the output block. -/
theorem cover0_C_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) (y : S1024x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x2048.size (by sl_kernel_rfl) y
/-- What the last case leaves in the output block. -/
def out0_C_2 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) : Vec F S1024x2048 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) (y : S1024x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x2048.size (by sl_kernel_rfl) y
def sout0_C_0 (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) : Vec F S1024x2048 .f32 :=
  VS0_0.read (Elt F) (VS0_0.writes (Elt F) VS0_0.junk (kernelRun0_C c i arg3 harg3 arg4 harg4 arg5 harg5 arg6 harg6 hc0 hc1 x0 x1 xs0).2.1)

/-! ## What the output block and the accumulator hold after each point -/

/-- After the body at position `n`: (the output block's staging buffer, the accumulator); the case is chosen by `n` mod 4, and
    a case that starts from the accumulator takes what position `n - 1` left in it. -/
def outsAt0 (c : Dev nD) : (n : ℕ) → n < cfg0.N → Vec F S1024x2048 .f32 × Vec F S1024x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything); afterwards the
    accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' memrefs hold their blocks; `t` mod 4 says which case the point is in; the invariant hands the
    body the accumulator at what the point before left (at anything at the very first point) and takes it back at this point's
    contents; where the output block is idle it is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

set_option maxHeartbeats 16000000 in
set_option backward.isDefEq.respectTransparency.types false in
/-- Every weakly fair execution of @main terminates, every array of the pipeline at what the library computes from the proof data
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Hand

end
-- ==== Proof.KIResult.lean ====
/-
  The run of the idealized kernel program with its result named: the result buffer ends at what the lines after the region
  compute from the region's arrays, and every argument ends as launched.
-/
import proofs.«169880_j67190468378873_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result after the run: the host lines after the region applied to the memory the region leaves. -/
def result (c : Dev nD) : Buf (Elt F) ((c.tc : Thread nD τ).loc main_v80) :=
  Pipeline.afterTail₀ cfgs (dats m) 0 (V0 m) [hostOps1, hostOps1_1] c main_v80

theorem run_result : θ_run defs (onTc (τ := τ) (main (F := F))) ⟨m, fun _ => 0, ρ⟩ (fun r => ∀ c : Dev nD,
      r.2.mem ((c.tc : Thread nD τ).loc main_v80) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v80 (Pipeline.mem_restRefs_of main_v80 (by decide) (by decide)),
    ((h c).2 main_arg0 (Pipeline.mem_restRefs_of main_arg0 (by decide) (by decide))).trans (W_kept m (dats m) c main_arg0 (by decide) (by decide) (by decide)),
    ((h c).2 main_arg1 (Pipeline.mem_restRefs_of main_arg1 (by decide) (by decide))).trans (W_kept m (dats m) c main_arg1 (by decide) (by decide) (by decide)),
    ((h c).2 main_arg2 (Pipeline.mem_restRefs_of main_arg2 (by decide) (by decide))).trans (W_kept m (dats m) c main_arg2 (by decide) (by decide) (by decide)),
    ((h c).2 main_arg3 (Pipeline.mem_restRefs_of main_arg3 (by decide) (by decide))).trans (W_kept m (dats m) c main_arg3 (by decide) (by decide) (by decide)),
    ((h c).2 main_arg4 (Pipeline.mem_restRefs_of main_arg4 (by decide) (by decide))).trans (W_kept m (dats m) c main_arg4 (by decide) (by decide) (by decide)),
    ((h c).2 main_arg5 (Pipeline.mem_restRefs_of main_arg5 (by decide) (by decide))).trans (W_kept m (dats m) c main_arg5 (by decide) (by decide) (by decide)),
    ((h c).2 main_arg6 (Pipeline.mem_restRefs_of main_arg6 (by decide) (by decide))).trans (W_kept m (dats m) c main_arg6 (by decide) (by decide) (by decide)),
    ((h c).2 main_arg7 (Pipeline.mem_restRefs_of main_arg7 (by decide) (by decide))).trans (W_kept m (dats m) c main_arg7 (by decide) (by decide) (by decide)),
    ((h c).2 main_arg8 (Pipeline.mem_restRefs_of main_arg8 (by decide) (by decide))).trans (W_kept m (dats m) c main_arg8 (by decide) (by decide) (by decide)),
    ((h c).2 main_arg9 (Pipeline.mem_restRefs_of main_arg9 (by decide) (by decide))).trans (W_kept m (dats m) c main_arg9 (by decide) (by decide) (by decide)),
    ((h c).2 main_arg10 (Pipeline.mem_restRefs_of main_arg10 (by decide) (by decide))).trans (W_kept m (dats m) c main_arg10 (by decide) (by decide) (by decide))⟩) (run_main m ρ)

end Cert.KernelIdeal.Hand

end
-- ==== Proof.KIValuePieces.lean ====
/-
  What each case of the kernel body leaves in the accumulator and in the output block, as one accumulation step.
-/
import proofs.«169880_j67190468378873_2_alg».proof.Proof.KIFrame
import Idealize.ShloMosaic.Lib.Pipeline.Value
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Idealize.ShloMosaic.Tactic

variable {F : FTy → Type} [FloatOps F]

theorem hz : (![0, 0] : Fin 2 → Nat) = fun _ => 0 := funext fun a => by fin_cases a <;> rfl

/-- The first case (the grid's last coordinate is 0): the accumulator is reset to the zero payload, read back, and left
    at one accumulation step from it. -/
theorem soutA_eq (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x1024 .bf16) (x1 : Vec F S1024x2048 .bf16) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x2048) hz, View.readCov_unit_zero (S := S1024x2048) _ hz]
  simp only [View.readAt_eq_ld, harg3.read_unread, harg4.read_unread, View.ld_unit_zero (S := S1024x1024) hz, View.ld_unit_zero (S := S1024x2048) hz]

/-- A middle case (the last coordinate is 1 or 2): one accumulation step from what the accumulator held. -/
theorem soutB_eq (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x1024 .bf16) (x1 : Vec F S1024x2048 .bf16) (xs0 : Vec F S1024x2048 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  try sl_unfold_words
  rw [View.canon_unit_zero (S := S1024x2048) hz]
  simp only [View.readAt_eq_ld, harg3.read_unread, harg4.read_unread, harg6.read_unread, View.ld_unit_zero (S := S1024x1024) hz, View.ld_unit_zero (S := S1024x2048) hz]

/-- The last case (the last coordinate is 3): the accumulator likewise … -/
theorem soutC_eq (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  try sl_unfold_words
  rw [View.canon_unit_zero (S := S1024x2048) hz]
  simp only [View.readAt_eq_ld, harg3.read_unread, harg4.read_unread, harg6.read_unread, View.ld_unit_zero (S := S1024x1024) hz, View.ld_unit_zero (S := S1024x2048) hz]

/-- … and the output block receives the accumulator's new contents. -/
theorem outC_eq (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x1024 .bf16) (x1 : Vec F S1024x2048 .bf16) (xs0 : Vec F S1024x2048 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero (S := S1024x2048) hz, View.readCov_unit_zero (S := S1024x2048) _ hz]
  simp only [View.readAt_eq_ld, harg3.read_unread, harg4.read_unread, harg6.read_unread, View.ld_unit_zero (S := S1024x1024) hz, View.ld_unit_zero (S := S1024x2048) hz]

end Cert.KernelIdeal.HandValue

end
-- ==== Proof.KIValueBlocks.lean ====
/-
  The windows' blocks as entries of their arrays: at point t of the (2, 6, 4) grid the left operand's block is block
  (t / 24, t % 4) of its array, the right operand's block (t % 4, (t / 4) % 6), the product's block (t / 24, (t / 4) % 6).
-/
import proofs.«169880_j67190468378873_2_alg».proof.Proof.KIBase
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The rounded left array as the region finds it, at its literal shape. -/
abbrev A6 (c : Dev nD) : Vec F S2048x4096 .bf16 := V m c main_v6
/-- The rounded right array as the region finds it, at its literal shape. -/
abbrev B7 (c : Dev nD) : Vec F S4096x12288 .bf16 := V m c main_v7

/-- The grid has 48 points. -/
theorem lt48 (t : Fin cfg0.N) : t.val < 48 := lt_of_lt_of_eq t.isLt (show cfg0.N = 48 from N_0)

/-- The windows' block indices at point t: the left operand's block is (t / 24, t % 4), the right operand's
    (t % 4, (t / 4) % 6), the product's (t / 24, (t / 4) % 6). -/
theorem idx_facts : ∀ t : Fin cfg0.N,
    win0_0.index t (0 : Fin 2) = t.val / 24 ∧ win0_0.index t (1 : Fin 2) = t.val % 4
    ∧ win0_1.index t (0 : Fin 2) = t.val % 4 ∧ win0_1.index t (1 : Fin 2) = t.val / 4 % 6
    ∧ win0_2.index t (0 : Fin 2) = t.val / 24 ∧ win0_2.index t (1 : Fin 2) = t.val / 4 % 6 :=
  (by decide +kernel : ∀ t : Fin grid0.N, _)

/-- The left operand's block at point t, read at x, is the rounded left array at rows 1024 (t / 24) + x₀ and
    columns 1024 (t % 4) + x₁. -/
theorem iblk0_at (c : Dev nD) (t : Fin cfg0.N) (x : S1024x1024.Idx) (k : S2048x4096.Idx)
    (hk0 : (k 0).val = 1024 * (t.val / 24) + (x 0).val) (hk1 : (k 1).val = 1024 * (t.val % 4) + (x 1).val) :
    (iblk m c 0 t : Vec F S1024x1024 .bf16) x = A6 m c k := by
  obtain ⟨e0, e1, -, -, -, -⟩ := idx_facts t
  unfold iblk
  rw [View.read_apply]
  show V m c main_v6 _ = V m c main_v6 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The right operand's block at point t, read at x, is the rounded right array at rows 1024 (t % 4) + x₀ and
    columns 2048 ((t / 4) % 6) + x₁. -/
theorem iblk1_at (c : Dev nD) (t : Fin cfg0.N) (x : S1024x2048.Idx) (k : S4096x12288.Idx)
    (hk0 : (k 0).val = 1024 * (t.val % 4) + (x 0).val) (hk1 : (k 1).val = 2048 * (t.val / 4 % 6) + (x 1).val) :
    (iblk m c 1 t : Vec F S1024x2048 .bf16) x = B7 m c k := by
  obtain ⟨-, -, e0, e1, -, -⟩ := idx_facts t
  unfold iblk
  rw [View.read_apply]
  show V m c main_v7 _ = V m c main_v7 _
  congr 1
  funext a
  apply Fin.ext
  match a with
  | ⟨0, _⟩ => show win0_1.index t 0 * 1024 + 1 * (x 0).val = (k 0).val; rw [e0, hk0]; omega
  | ⟨1, _⟩ => show win0_1.index t 1 * 2048 + 1 * (x 1).val = (k 1).val; rw [e1, hk1]; omega

/-- The same with the coordinates spelled out. -/
theorem iblk0_apply (c : Dev nD) (t : Fin cfg0.N) (p k : Fin 1024) :
    (iblk m c 0 t : Vec F S1024x1024 .bf16) (ix2 p k)
      = A6 m c
          (ix2 (⟨1024 * (t.val / 24) + p.val, by have := lt48 t; omega⟩ : Fin 2048)
               (⟨1024 * (t.val % 4) + k.val, by omega⟩ : Fin 4096)) :=
  iblk0_at m c t (ix2 p k) _ rfl rfl

theorem iblk1_apply (c : Dev nD) (t : Fin cfg0.N) (k : Fin 1024) (q : Fin 2048) :
    (iblk m c 1 t : Vec F S1024x2048 .bf16) (ix2 k q)
      = B7 m c
          (ix2 (⟨1024 * (t.val % 4) + k.val, by omega⟩ : Fin 4096)
               (⟨2048 * (t.val / 4 % 6) + q.val, by omega⟩ : Fin 12288)) :=
  iblk1_at m c t (ix2 k q) _ rfl rfl

end Cert.KernelIdeal.HandValue

end
-- ==== Proof.AccPayload.lean ====
/-
  The arithmetic of one accumulated block product, at the ideal values (floats are extended reals).

  A 1024 × 1024 block times a 1024 × 2048 block, added into a 1024 × 2048 accumulator, reads at an
  output index (p, q) as the accumulator there plus the sum over the contracted coordinate k of the
  products a(p, k) · b(k, q); the zero payload reads 0 everywhere. Four such steps on one output block,
  the first from the zero payload and each later one from what the step before left, leave the sum of
  the four partial products. Addition of extended reals is a commutative monoid, which is all this uses.
-/
import proofs.«169880_j67190468378873_2_alg».proof.Proof.Gen.KernelIdeal.Skeleton
import Idealize.ShloMosaic.Lib.ValueIdx
import Idealize.ShloMosaic.PureOps.Ideal.Laws
import Idealize.ShloMosaic.Lib.Pipeline.Value

noncomputable section

open scoped BigOperators

namespace Cert.Acc

open Cert.KernelIdeal Cert.KernelIdeal.Gen Idealize.ShloMosaic Idealize.ShloMosaic.ValueIdx

/-- The zero payload reads 0 at every index. -/
theorem pay1_apply (p : Fin 1024) (q : Fin 2048) : k0_pay1 (F := Ideal) (ix2 p q) = 0 := by
  unfold k0_pay1
  rw [shapeCast_self]
  exact Ideal.ofBits_zero_f32

/-- The block product's left operand index keeps the output row … -/
theorem lhs_block_0 (i : S1024x2048.Idx) (c : dot_S1024x1024_S1024x2048_S1024x2048_1_0_0_1_n_n.contr.Idx) :
    (dot_S1024x1024_S1024x2048_S1024x2048_1_0_0_1_n_n.lhsIdx i c 0).val = (i 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl
/-- … and takes the contracted coordinate as its column. -/
theorem lhs_block_1 (i : S1024x2048.Idx) (c : dot_S1024x1024_S1024x2048_S1024x2048_1_0_0_1_n_n.contr.Idx) :
    (dot_S1024x1024_S1024x2048_S1024x2048_1_0_0_1_n_n.lhsIdx i c 1).val = (c ⟨0, by decide⟩).val :=
  dot_S1024x1024_S1024x2048_S1024x2048_1_0_0_1_n_n.lhsIdx_val_of_single rfl i c
/-- The right operand index takes the contracted coordinate as its row … -/
theorem rhs_block_0 (i : S1024x2048.Idx) (c : dot_S1024x1024_S1024x2048_S1024x2048_1_0_0_1_n_n.contr.Idx) :
    (dot_S1024x1024_S1024x2048_S1024x2048_1_0_0_1_n_n.rhsIdx i c 0).val = (c ⟨0, by decide⟩).val :=
  dot_S1024x1024_S1024x2048_S1024x2048_1_0_0_1_n_n.rhsIdx_val_of_single rfl i c
/-- … and keeps the output column. -/
theorem rhs_block_1 (i : S1024x2048.Idx) (c : dot_S1024x1024_S1024x2048_S1024x2048_1_0_0_1_n_n.contr.Idx) :
    (dot_S1024x1024_S1024x2048_S1024x2048_1_0_0_1_n_n.rhsIdx i c 1).val = (i 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The block product's left operand index at output index (p, q) and contracted coordinate k is (p, k). -/
theorem lhsIdx_block (p : Fin 1024) (q : Fin 2048) (k : Fin 1024) :
    dot_S1024x1024_S1024x2048_S1024x2048_1_0_0_1_n_n.lhsIdx (ix2 p q)
      ((contrEquiv1 dot_S1024x1024_S1024x2048_S1024x2048_1_0_0_1_n_n 1024 rfl rfl).symm k) = ix2 p k := by
  have hk := contrEquiv1_symm_val dot_S1024x1024_S1024x2048_S1024x2048_1_0_0_1_n_n 1024 rfl rfl k
  exact funext fun ax => Fin.ext (by
    match ax with
    | ⟨0, _⟩ => exact lhs_block_0 _ _
    | ⟨1, _⟩ => exact (lhs_block_1 _ _).trans hk)

/-- The block product's right operand index at output index (p, q) and contracted coordinate k is (k, q). -/
theorem rhsIdx_block (p : Fin 1024) (q : Fin 2048) (k : Fin 1024) :
    dot_S1024x1024_S1024x2048_S1024x2048_1_0_0_1_n_n.rhsIdx (ix2 p q)
      ((contrEquiv1 dot_S1024x1024_S1024x2048_S1024x2048_1_0_0_1_n_n 1024 rfl rfl).symm k) = ix2 k q := by
  have hk := contrEquiv1_symm_val dot_S1024x1024_S1024x2048_S1024x2048_1_0_0_1_n_n 1024 rfl rfl k
  exact funext fun ax => Fin.ext (by
    match ax with
    | ⟨0, _⟩ => exact (rhs_block_0 _ _).trans hk
    | ⟨1, _⟩ => exact rhs_block_1 _ _)

/-- The block product into the zero splat, read at (p, q): the sum over k of a(p, k) · b(k, q). -/
theorem matmul_block_apply (a : FVec Ideal S1024x1024 .bf16) (b : FVec Ideal S1024x2048 .bf16) (p : Fin 1024) (q : Fin 2048) :
    FloatOps.matmul dot_S1024x1024_S1024x2048_S1024x2048_1_0_0_1_n_n none a b (constant S1024x2048 .f32 0x00000000#32) (ix2 p q)
      = ∑ k : Fin 1024, a (ix2 p k) * b (ix2 k q) := by
  rw [Ideal.matmul_constant_zero_apply,
    ← Equiv.sum_comp (contrEquiv1 dot_S1024x1024_S1024x2048_S1024x2048_1_0_0_1_n_n 1024 rfl rfl).symm]
  refine Finset.sum_congr rfl fun k _ => ?_
  rw [lhsIdx_block, rhsIdx_block]

/-- One accumulation step read at (p, q): what the accumulator held there plus the block product there. -/
theorem pay2_apply (a : Vec Ideal S1024x1024 .bf16) (b : Vec Ideal S1024x2048 .bf16) (acc : Vec Ideal S1024x2048 .f32)
    (p : Fin 1024) (q : Fin 2048) :
    k0_pay2 a b acc (ix2 p q) = acc (ix2 p q) + ∑ k : Fin 1024, a (ix2 p k) * b (ix2 k q) := by
  unfold k0_pay2
  rw [shapeCast_self, shapeCast_self, shapeCast_self]
  exact congrArg (acc (ix2 p q) + ·) (matmul_block_apply a b p q)

end Cert.Acc

end
-- ==== Proof.AccSum.lean ====
/-
  Four accumulation steps on one output block, and a sum over 4096 consecutive indices taken in four
  runs of 1024.

  The accumulator starts from the zero payload; each of the four steps adds one block product. Read at an
  output index (p, q), the block after the fourth step holds (((0 + P 0) + P 1) + P 2) + P 3, where
  P j = ∑ k, a_j(p, k) · b_j(k, q): the sum over the four steps of the partial products. Separately, a sum
  over e < 4096 is the sum over j < 4 of the sums over k < 1024 of the terms at e = 1024 · j + k, since
  (j, k) ↦ 1024 · j + k is a bijection from pairs onto the indices below 4096.
-/
import proofs.«169880_j67190468378873_2_alg».proof.Proof.AccPayload

noncomputable section

open scoped BigOperators

namespace Cert.Acc

open Cert.KernelIdeal Cert.KernelIdeal.Gen Idealize.ShloMosaic Idealize.ShloMosaic.ValueIdx

/-- four consecutive points of one output block: the first starts from the zero payload, each later one from what the one before left -/
theorem acc_at (a : ℕ → Vec Ideal S1024x1024 .bf16) (b : ℕ → Vec Ideal S1024x2048 .bf16) (S : ℕ → Vec Ideal S1024x2048 .f32) (n0 : ℕ)
    (h0 : S n0 = k0_pay2 (a n0) (b n0) (k0_pay1 (F := Ideal)))
    (hs : ∀ j, 1 ≤ j → j ≤ 3 → S (n0 + j) = k0_pay2 (a (n0 + j)) (b (n0 + j)) (S (n0 + j - 1)))
    (p : Fin 1024) (q : Fin 2048) :
    S (n0 + 3) (ix2 p q) = ∑ j : Fin 4, ∑ k : Fin 1024, a (n0 + j.val) (ix2 p k) * b (n0 + j.val) (ix2 k q) := by
  have h1 := hs 1 (by omega) (by omega)
  have h2 := hs 2 (by omega) (by omega)
  have h3 := hs 3 (by omega) (by omega)
  rw [show n0 + 1 - 1 = n0 by omega] at h1
  rw [show n0 + 2 - 1 = n0 + 1 by omega] at h2
  rw [show n0 + 3 - 1 = n0 + 2 by omega] at h3
  have e0 : S n0 (ix2 p q) = ∑ k : Fin 1024, a n0 (ix2 p k) * b n0 (ix2 k q) := by
    rw [h0, pay2_apply, pay1_apply, zero_add]
  have e1 : S (n0 + 1) (ix2 p q)
      = S n0 (ix2 p q) + ∑ k : Fin 1024, a (n0 + 1) (ix2 p k) * b (n0 + 1) (ix2 k q) := by
    rw [h1, pay2_apply]
  have e2 : S (n0 + 2) (ix2 p q)
      = S (n0 + 1) (ix2 p q) + ∑ k : Fin 1024, a (n0 + 2) (ix2 p k) * b (n0 + 2) (ix2 k q) := by
    rw [h2, pay2_apply]
  have e3 : S (n0 + 3) (ix2 p q)
      = S (n0 + 2) (ix2 p q) + ∑ k : Fin 1024, a (n0 + 3) (ix2 p k) * b (n0 + 3) (ix2 k q) := by
    rw [h3, pay2_apply]
  rw [e3, e2, e1, e0, Fin.sum_univ_four]
  rfl

/-- a sum over 4096 consecutive indices taken in four runs of 1024 -/
theorem sum_four_runs (g : Fin 4096 → EReal) :
    ∑ e : Fin 4096, g e = ∑ j : Fin 4, ∑ k : Fin 1024, g ⟨1024 * j.val + k.val, by omega⟩ := by
  rw [← Equiv.sum_comp (finProdFinEquiv (m := 4) (n := 1024)) g, Fintype.sum_prod_type]
  refine Finset.sum_congr rfl fun j _ => Finset.sum_congr rfl fun k _ => ?_
  refine congrArg g (Fin.ext ?_)
  show k.val + 1024 * j.val = 1024 * j.val + k.val
  omega

end Cert.Acc

end
-- ==== Proof.KIValueAcc.lean ====
/-
  The accumulator along the grid: each point adds one block product, and after the fourth point of an output block the
  block holds the whole product's entries — the sum over all 4096 contracted coordinates, taken in four runs of 1024.
-/
import proofs.«169880_j67190468378873_2_alg».proof.Proof.KIValuePieces
import proofs.«169880_j67190468378873_2_alg».proof.Proof.KIValueBlocks
import proofs.«169880_j67190468378873_2_alg».proof.Proof.AccSum

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## One accumulation step per point, at any float instance -/

section Steps
variable {F : FTy → Type} [FloatOps F]
variable (m : (ℓ : Loc nD τ sig) → Buf (Elt F) ℓ)

/-- At a point ≡ 0 (mod 4) the accumulator is left at one step from the zero payload. -/
theorem acc_step_A (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rw [outsAt0_A m c t h0 h1]
  dsimp only
  exact soutA_eq (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At a point ≡ 1, 2 (mod 4): one step from what the point before left. -/
theorem acc_step_B (c : Dev nD) (t : Fin cfg0.N) (h0 : ¬t.val % 4 = 0) (h1 : ¬t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1]
  dsimp only
  exact soutB_eq (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At a point ≡ 3 (mod 4): likewise … -/
theorem acc_step_C (c : Dev nD) (t : Fin cfg0.N) (h0 : ¬t.val % 4 = 0) (h1 : t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1]
  dsimp only
  exact soutC_eq (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- … and the output block holds what the accumulator does. -/
theorem out_eq_acc (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (outC_eq (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (soutC_eq (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end Steps

/-! ## Four steps on one output block, at the ideal values -/

section AtIdeal
variable (m : (ℓ : Loc nD τ sig) → Buf (Elt Ideal) ℓ)

/-- The left operand's block at position n (zero past the grid, which nothing reads). -/
def aN (c : Dev nD) (n : ℕ) : Vec Ideal S1024x1024 .bf16 := if h : n < cfg0.N then iblk m c 0 ⟨n, h⟩ else fun _ => (0 : EReal)
/-- The right operand's block at position n. -/
def bN (c : Dev nD) (n : ℕ) : Vec Ideal S1024x2048 .bf16 := if h : n < cfg0.N then iblk m c 1 ⟨n, h⟩ else fun _ => (0 : EReal)
/-- The accumulator after position n. -/
def sN (c : Dev nD) (n : ℕ) : Vec Ideal S1024x2048 .f32 := if h : n < cfg0.N then (outsAt0 m c n h).2 else fun _ => (0 : EReal)

theorem aN_eq (c : Dev nD) (n : ℕ) (h : n < cfg0.N) : aN m c n = iblk m c 0 ⟨n, h⟩ := dif_pos h
theorem bN_eq (c : Dev nD) (n : ℕ) (h : n < cfg0.N) : bN m c n = iblk m c 1 ⟨n, h⟩ := dif_pos h
theorem sN_eq (c : Dev nD) (n : ℕ) (h : n < cfg0.N) : sN m c n = (outsAt0 m c n h).2 := dif_pos h

/-- The accumulator after the fourth point n0 + 3 of an output block (n0 ≡ 0 mod 4), read at (p, q): the sum over the
    block's four points of their block products there. -/
theorem acc_block (c : Dev nD) (n0 : ℕ) (h : n0 + 3 < cfg0.N) (h0 : n0 % 4 = 0) (p : Fin 1024) (q : Fin 2048) :
    ((outsAt0 m c (n0 + 3) h).2 : Vec Ideal S1024x2048 .f32) (ix2 p q)
      = ∑ j : Fin 4, ∑ k : Fin 1024, aN m c (n0 + j.val) (ix2 p k) * bN m c (n0 + j.val) (ix2 k q) := by
  have hlt : ∀ j, j ≤ 3 → n0 + j < cfg0.N := fun j hj => lt_of_le_of_lt (by omega) h
  have e := Cert.Acc.acc_at (aN m c) (bN m c) (sN m c) n0
    (by
      rw [sN_eq m c n0 (hlt 0 (by omega)), aN_eq m c n0 (hlt 0 (by omega)), bN_eq m c n0 (hlt 0 (by omega))]
      exact acc_step_A m c ⟨n0, hlt 0 (by omega)⟩ h0)
    (fun j hj1 hj3 => by
      have hj : n0 + j < cfg0.N := hlt j hj3
      have hj' : n0 + j - 1 < cfg0.N := lt_of_le_of_lt (Nat.sub_le _ _) hj
      rw [sN_eq m c _ hj, aN_eq m c _ hj, bN_eq m c _ hj, sN_eq m c _ hj']
      by_cases hj3' : j = 3
      · exact acc_step_C m c ⟨n0 + j, hj⟩ (by show ¬(n0 + j) % 4 = 0; omega) (by show (n0 + j) % 4 = 3; omega)
      · exact acc_step_B m c ⟨n0 + j, hj⟩ (by show ¬(n0 + j) % 4 = 0; omega) (by show ¬(n0 + j) % 4 = 3; omega))
    p q
  rw [sN_eq m c _ h] at e
  exact e

/-- The output block after a point t ≡ 3 (mod 4), read at (p, q): the whole product at the array's row r and column s
    that (p, q) of block (t / 24, (t / 4) % 6) is — the sum over all 4096 contracted coordinates. -/
theorem out_block_at (c : Dev nD) (t : Fin cfg0.N) (h3 : t.val % 4 = 3) (p : Fin 1024) (q : Fin 2048)
    (r : Fin 2048) (s : Fin 12288) (hr : r.val = 1024 * (t.val / 24) + p.val) (hs : s.val = 2048 * (t.val / 4 % 6) + q.val) :
    ((outsAt0 m c t.val t.isLt).1 : Vec Ideal S1024x2048 .f32) (ix2 p q)
      = ∑ e : Fin 4096, A6 m c (ix2 r e) * B7 m c (ix2 e s) := by
  have hN := lt48 t
  have hcN : cfg0.N = 48 := N_0
  rw [out_eq_acc m c t h3]
  obtain ⟨tv, ht⟩ := t
  obtain ⟨n0, rfl⟩ : ∃ n0, tv = n0 + 3 := ⟨tv - 3, by dsimp only at h3; omega⟩
  dsimp only at h3 hr hs hN
  show ((outsAt0 m c (n0 + 3) ht).2 : Vec Ideal S1024x2048 .f32) (ix2 p q) = _
  rw [acc_block m c n0 ht (by omega) p q,
    Cert.Acc.sum_four_runs (fun e => A6 m c (ix2 r e) * B7 m c (ix2 e s))]
  refine Finset.sum_congr rfl fun j _ => Finset.sum_congr rfl fun k _ => ?_
  have hj : n0 + j.val < cfg0.N := lt_of_lt_of_eq (by omega) hcN.symm
  rw [aN_eq m c _ hj, bN_eq m c _ hj]
  have ea := iblk0_at m c ⟨n0 + j.val, hj⟩ (ix2 p k) (ix2 r ⟨1024 * j.val + k.val, by omega⟩)
    (by show r.val = 1024 * ((n0 + j.val) / 24) + p.val; omega)
    (by show 1024 * j.val + k.val = 1024 * ((n0 + j.val) % 4) + k.val; omega)
  have eb := iblk1_at m c ⟨n0 + j.val, hj⟩ (ix2 k q) (ix2 ⟨1024 * j.val + k.val, by omega⟩ s)
    (by show 1024 * j.val + k.val = 1024 * ((n0 + j.val) % 4) + k.val; omega)
    (by show s.val = 2048 * ((n0 + j.val) / 4 % 6) + q.val; omega)
  rw [ea, eb]

end AtIdeal

end Cert.KernelIdeal.HandValue

end
-- ==== Proof.KIValueFinal.lean ====
/-
  The product array after the run: every flushing point writes back its block of the product of the two rounded arrays,
  the flushing points' blocks cover the array, so the array ends holding the product; the operand arrays are not written.
-/
import proofs.«169880_j67190468378873_2_alg».proof.Proof.KIValueAcc

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The product of the two rounded arrays: entry (r, s) is the sum over the 4096 contracted coordinates. -/
def G (c : Dev nD) : Vec Ideal S2048x12288 .f32 :=
  fun (i : S2048x12288.Idx) => ∑ e : Fin 4096, A6 m c (ix2 (i 0) e) * B7 m c (ix2 e (i 1))

/-- What a flushing point writes back is its block of the product. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  obtain ⟨-, -, -, -, e0, e1⟩ := idx_facts t
  show (cfg0.win 2).cut (grid0.coords t) ((dats m 0 c).after 2 t) = _
  rw [after0_2]
  funext y
  obtain ⟨p, q, rfl⟩ : ∃ (p : Fin 1024) (q : Fin 2048), y = ix2 p q := ⟨y 0, y 1, eq_ix2 y⟩
  rw [View.read_apply]
  show ((outsAt0 m c t.val t.isLt).1 : Vec Ideal S1024x2048 .f32) (ix2 p q) = G m c (((cfg0.win 2).blk t).view.emb (ix2 p q))
  exact out_block_at m c t h3 p q _ _
    (by show win0_2.index t 0 * 1024 + 1 * p.val = 1024 * (t.val / 24) + p.val; rw [e0]; omega)
    (by show win0_2.index t 1 * 2048 + 1 * q.val = 2048 * (t.val / 4 % 6) + q.val; rw [e1]; omega)

/-- Every entry of the product array is in the block of the flushing point 4 (6 (r / 1024) + s / 2048) + 3. -/
theorem cover (i : S2048x12288.Idx) : ∃ t : Fin cfg0.N, (cfg0.win 2).flush t = true ∧ i ∈ ((cfg0.win 2).blk t).view.set := by
  have hi0 : (i 0).val < 2048 := (i 0).isLt
  have hi1 : (i 1).val < 12288 := (i 1).isLt
  have hcN : cfg0.N = 48 := N_0
  obtain ⟨tv, htv⟩ : ∃ tv, tv = 4 * (6 * ((i 0).val / 1024) + (i 1).val / 2048) + 3 := ⟨_, rfl⟩
  have hlt : tv < cfg0.N := by rw [hcN]; omega
  obtain ⟨-, -, -, -, e0, e1⟩ := idx_facts ⟨tv, hlt⟩
  refine ⟨⟨tv, hlt⟩, (flush0_2 _).mpr (by show tv % 4 = 3; omega), ?_⟩
  show i ∈ ((View.whole main_v8).slice (win0_2.rect ⟨tv, hlt⟩)).set
  rw [View.set_slice_whole, Rect.mem_set_unit]
  intro a
  match a with
  | ⟨0, _⟩ =>
    show win0_2.index ⟨tv, hlt⟩ 0 * 1024 ≤ (i 0).val ∧ (i 0).val < win0_2.index ⟨tv, hlt⟩ 0 * 1024 + 1024
    rw [e0]; show tv / 24 * 1024 ≤ (i 0).val ∧ (i 0).val < tv / 24 * 1024 + 1024; omega
  | ⟨1, _⟩ =>
    show win0_2.index ⟨tv, hlt⟩ 1 * 2048 ≤ (i 1).val ∧ (i 1).val < win0_2.index ⟨tv, hlt⟩ 1 * 2048 + 2048
    rw [e1]; show tv / 4 % 6 * 2048 ≤ (i 1).val ∧ (i 1).val < tv / 4 % 6 * 2048 + 2048; omega

/-- The product array after the run: the product of the two rounded arrays, entry by entry. -/
theorem final2_eq (c : Dev nD) : (Hand.dats (F := Ideal) m 0 c).arrAt 2 cfg0.N = G m c :=
  (dats m 0 c).arrAt_eq_of_cover 2 (G m c) (flushed_eq m c) cover

/-- The product array after the run, at its literal shape. -/
abbrev O8 (c : Dev nD) : Vec Ideal S2048x12288 .f32 := (Hand.dats (F := Ideal) m 0 c).arrAt 2 cfg0.N

/-- Entry by entry. -/
theorem final2 (c : Dev nD) (r : Fin 2048) (q : Fin 12288) :
    O8 m c (ix2 r q) = ∑ k : Fin 4096, A6 m c (ix2 r k) * B7 m c (ix2 k q) :=
  congrFun (final2_eq m c) (ix2 r q)

/-- The two operand arrays end as the region found them. -/
theorem final0 (c : Dev nD) : (Hand.dats (F := Ideal) m 0 c).arrAt 0 cfg0.N = Hand.V m c main_v6 :=
  ((dats m 0 c).arrAt_in 0 rfl _).trans (A_eq m c 0)
theorem final1 (c : Dev nD) : (Hand.dats (F := Ideal) m 0 c).arrAt 1 cfg0.N = Hand.V m c main_v7 :=
  ((dats m 0 c).arrAt_in 1 rfl _).trans (A_eq m c 1)

end Cert.KernelIdeal.HandValue

end
-- ==== Proof.HostEpi.lean ====
/- The message-passing epilogue shared by the two programs, as one function of the big product,
   the gate product, the kept relations, the kept predicate classes and the two bias tables. -/
import proofs.«169880_j67190468378873_2_alg».proof.Proof.Gen.ReferenceIdeal
import proofs.«169880_j67190468378873_2_alg».proof.Proof.Gen.ReferenceIdeal.Read

noncomputable section

namespace Cert.HostSide

open Cert.ReferenceIdeal Cert.ReferenceIdeal.Gen Idealize.ShloMosaic Idealize.ShloMosaic.TcCoe Idealize.SL.Sem

variable {F : FTy → Type} [FloatOps F]

/-- A constant i32 vector of 1280 entries. -/
def k1280 (n : BitVec 32) : (⟨S1280, .i32⟩ : BufTy).Contents (Elt F) := broadcastInDim S1280 ![] bcast_S_S1280 (constantI S_ 32 n)
/-- A constant i32 vector of 2048 entries. -/
def k2048 (n : BitVec 32) : (⟨S2048, .i32⟩ : BufTy).Contents (Elt F) := broadcastInDim S2048 ![] bcast_S_S2048 (constantI S_ 32 n)
/-- A constant i32 vector of 4608 entries. -/
def k4608 (n : BitVec 32) : (⟨S4608, .i32⟩ : BufTy).Contents (Elt F) := broadcastInDim S4608 ![] bcast_S_S4608 (constantI S_ 32 n)

/-- The subjects: column 1 of the kept relations. -/
def subj (R : (⟨S1280x3, .i32⟩ : BufTy).Contents (Elt F)) : (⟨S1280, .i32⟩ : BufTy).Contents (Elt F) :=
  shapeCast _ (extractStridedSlice S1280x1 ![0, 1] R slices_S1280x3_S1280x1_0_1) shapeCasts_S1280x1_S1280
/-- The objects: column 2 of the kept relations. -/
def obj (R : (⟨S1280x3, .i32⟩ : BufTy).Contents (Elt F)) : (⟨S1280, .i32⟩ : BufTy).Contents (Elt F) :=
  shapeCast _ (extractStridedSlice S1280x1 ![0, 2] R slices_S1280x3_S1280x1_0_2) shapeCasts_S1280x1_S1280
/-- The regions' own numbers 0 … 2047. -/
def selfIds : (⟨S2048, .i32⟩ : BufTy).Contents (Elt F) := iotaInDim S2048 32 0

/-- The message rows: 3·o, 3·s + 1, 3·n + 2. -/
def idx (R : (⟨S1280x3, .i32⟩ : BufTy).Contents (Elt F)) : (⟨S4608, .i32⟩ : BufTy).Contents (Elt F) :=
  concatenate S4608 0 [⟨S1280, addi (muli (obj (F := F) R) (k1280 (F := F) 3#32)) (k1280 (F := F) 0#32)⟩,
    ⟨S1280, addi (muli (subj (F := F) R) (k1280 (F := F) 3#32)) (k1280 (F := F) 1#32)⟩,
    ⟨S2048, addi (muli (selfIds (F := F)) (k2048 (F := F) 3#32)) (k2048 (F := F) 2#32)⟩] concatenates_S1280_S1280_S2048_S4608_d0
/-- The messages' predicate classes: the kept ones twice, then zero for the self loops. -/
def pr (P : (⟨S1280, .i32⟩ : BufTy).Contents (Elt F)) : (⟨S4608, .i32⟩ : BufTy).Contents (Elt F) :=
  concatenate S4608 0 [⟨S1280, P⟩, ⟨S1280, P⟩, ⟨S2048, k2048 (F := F) 0#32⟩] concatenates_S1280_S1280_S2048_S4608_d0
/-- The messages' targets: s, o, n. -/
def tgt (R : (⟨S1280x3, .i32⟩ : BufTy).Contents (Elt F)) : (⟨S4608, .i32⟩ : BufTy).Contents (Elt F) :=
  concatenate S4608 0 [⟨S1280, subj (F := F) R⟩, ⟨S1280, obj (F := F) R⟩, ⟨S2048, selfIds (F := F)⟩] concatenates_S1280_S1280_S2048_S4608_d0
/-- A negative index counted from the end of an axis of length n. -/
def wrap (n : BitVec 32) (v : (⟨S4608, .i32⟩ : BufTy).Contents (Elt F)) : (⟨S4608, .i32⟩ : BufTy).Contents (Elt F) :=
  select (cmpi .slt v (k4608 (F := F) 0#32)) (addi v (k4608 (F := F) n)) v
/-- A vector as a one-column matrix. -/
def col (v : (⟨S4608, .i32⟩ : BufTy).Contents (Elt F)) : (⟨S4608x1, .i32⟩ : BufTy).Contents (Elt F) := broadcastInDim S4608x1 ![0] bcast_S4608_S4608x1_0 v

/-- The ones. -/
def ones : (⟨S4608, .f32⟩ : BufTy).Contents (Elt F) := broadcastInDim S4608 ![] bcast_S_S4608 (constant S_ .f32 0x3F800000#32)
/-- The zeros. -/
def zeros : (⟨S2048x4096, .f32⟩ : BufTy).Contents (Elt F) := broadcastInDim S2048x4096 ![] bcast_S_S2048x4096 (constant S_ .f32 0x00000000#32)

/-- The gate of every message: the logistic function of the gate product's entry plus the class's gate bias. -/
def gate (G : (⟨S2048x3, .f32⟩ : BufTy).Contents (Elt F)) (R : (⟨S1280x3, .i32⟩ : BufTy).Contents (Elt F)) (P : (⟨S1280, .i32⟩ : BufTy).Contents (Elt F)) (BG : (⟨S81x1, .f32⟩ : BufTy).Contents (Elt F)) : (⟨S4608, .f32⟩ : BufTy).Contents (Elt F) :=
  Host.divf (ones (F := F)) (addf (ones (F := F)) (Host.exp (Host.negf (addf
    (Host.gather gather_S6144_S4608x1_S4608_n_0_n_n_0_1_1 (shapeCast _ G shapeCasts_S2048x3_S6144) (col (F := F) (wrap (F := F) 6144#32 (idx (F := F) R))))
    (Host.gather gather_S81x1_S4608x2_S4608_n_01_n_n_01_1_11 BG
      (concatenate S4608x2 1 [⟨S4608x1, col (F := F) (wrap (F := F) 81#32 (pr (F := F) P))⟩, ⟨S4608x1, col (F := F) (id (k4608 (F := F) 0#32))⟩] concatenates_S4608x1_S4608x1_S4608x2_d1))))))

/-- The messages: gate times (the product's row plus the class's bias row). -/
def msg (C : (⟨S2048x12288, .f32⟩ : BufTy).Contents (Elt F)) (G : (⟨S2048x3, .f32⟩ : BufTy).Contents (Elt F)) (R : (⟨S1280x3, .i32⟩ : BufTy).Contents (Elt F)) (P : (⟨S1280, .i32⟩ : BufTy).Contents (Elt F))
    (BL : (⟨S81x4096, .f32⟩ : BufTy).Contents (Elt F)) (BG : (⟨S81x1, .f32⟩ : BufTy).Contents (Elt F)) : (⟨S4608x4096, .f32⟩ : BufTy).Contents (Elt F) :=
  mulf (broadcastInDim S4608x4096 ![0, 1] bcast_S4608x1_S4608x4096_0_1 (broadcastInDim S4608x1 ![0] bcast_S4608_S4608x1_0 (gate (F := F) G R P BG)))
    (addf (Host.gather gather_S6144x4096_S4608x1_S4608x4096_1_0_n_n_0_1_14096 (shapeCast _ C shapeCasts_S2048x12288_S6144x4096) (col (F := F) (wrap (F := F) 6144#32 (idx (F := F) R))))
      (Host.gather gather_S81x4096_S4608x1_S4608x4096_1_0_n_n_0_1_14096 BL (col (F := F) (wrap (F := F) 81#32 (pr (F := F) P)))))

/-- The epilogue: the messages summed into their targets, then the positive part. -/
def epi (C : (⟨S2048x12288, .f32⟩ : BufTy).Contents (Elt F)) (G : (⟨S2048x3, .f32⟩ : BufTy).Contents (Elt F)) (R : (⟨S1280x3, .i32⟩ : BufTy).Contents (Elt F)) (P : (⟨S1280, .i32⟩ : BufTy).Contents (Elt F))
    (BL : (⟨S81x4096, .f32⟩ : BufTy).Contents (Elt F)) (BG : (⟨S81x1, .f32⟩ : BufTy).Contents (Elt F)) : (⟨S2048x4096, .f32⟩ : BufTy).Contents (Elt F) :=
  maximumf (Host.scatterAdd scatter_S2048x4096_S4608x1_S4608x4096_1_0_0_1 (zeros (F := F)) (col (F := F) (tgt (F := F) R)) (msg (F := F) C G R P BL BG)) (zeros (F := F))

/-- The reference program's result is the epilogue of its two products, its kept relations and classes, and its bias tables. -/
theorem ref_eq (x1 : (⟨S2048x4096, .f32⟩ : BufTy).Contents (Elt F)) (x2 : (⟨S2048, .i32⟩ : BufTy).Contents (Elt F)) (x3 : (⟨S2048x3, .i32⟩ : BufTy).Contents (Elt F)) (x7 : (⟨S4096x12288, .f32⟩ : BufTy).Contents (Elt F))
    (x8 : (⟨S4096x3, .f32⟩ : BufTy).Contents (Elt F)) (x9 : (⟨S81x4096, .f32⟩ : BufTy).Contents (Elt F)) (x10 : (⟨S81x1, .f32⟩ : BufTy).Contents (Elt F)) :
    Cert.ReferenceIdeal.Read.val_main_v77 (F := F) x1 x2 x3 x7 x8 x9 x10
      = epi (F := F) (Cert.ReferenceIdeal.Read.val_main_v6 (F := F) x1 x7) (Cert.ReferenceIdeal.Read.val_main_v8 (F := F) x1 x8)
          (Cert.ReferenceIdeal.Read.val_main_v2 (F := F) x3) (Cert.ReferenceIdeal.Read.val_main_v5 (F := F) x2) x9 x10 := rfl

end Cert.HostSide

end
-- ==== Proof.HostHead.lean ====
/- The kernel program's lines before the pallas region, evaluated. -/
import proofs.«169880_j67190468378873_2_alg».proof.Proof.Gen.KernelIdeal
import proofs.«169880_j67190468378873_2_alg».proof.Proof.Gen.KernelIdeal.Launch
import proofs.«169880_j67190468378873_2_alg».proof.Proof.Gen.ReferenceIdeal
import proofs.«169880_j67190468378873_2_alg».proof.Proof.Gen.ReferenceIdeal.Read

noncomputable section

namespace Cert.HostSide

open Cert.KernelIdeal Cert.KernelIdeal.Gen Idealize.ShloMosaic Idealize.ShloMosaic.TcCoe Idealize.SL.Sem Idealize.ShloMosaic.StableHlo

variable {F : FTy → Type} [FloatOps F]

/-- The kept relations: the reference's own reshape, slice, reshape of the relations. -/
theorem head_v2 (V : Valuation τ sig (Elt F)) :
    StableHlo.after (List.flatten [hostOps0 (F := F)]) V (Proc.devRef .tc main_v2)
      = Cert.ReferenceIdeal.Read.val_main_v2 (F := F) (V (Proc.devRef .tc main_arg3)) := by
  simp only [List.flatten_cons, List.flatten_nil, List.append_nil, List.cons_append, List.nil_append]
  after_results_simp
  rfl

/-- The kept predicate classes: the reference's own reshape, slice, reshape of the classes. -/
theorem head_v5 (V : Valuation τ sig (Elt F)) :
    StableHlo.after (List.flatten [hostOps0 (F := F)]) V (Proc.devRef .tc main_v5)
      = Cert.ReferenceIdeal.Read.val_main_v5 (F := F) (V (Proc.devRef .tc main_arg2)) := by
  simp only [List.flatten_cons, List.flatten_nil, List.append_nil, List.cons_append, List.nil_append]
  after_results_simp
  rfl

/-- The region's left operand: the features narrowed to bf16. -/
theorem head_v6 (V : Valuation τ sig (Elt F)) :
    StableHlo.after (List.flatten [hostOps0 (F := F)]) V (Proc.devRef .tc main_v6)
      = (truncf .bf16 (V (Proc.devRef .tc main_arg1)) bitsLt_bf16_f32 : (⟨S2048x4096, .bf16⟩ : BufTy).Contents (Elt F)) := by
  simp only [List.flatten_cons, List.flatten_nil, List.append_nil, List.cons_append, List.nil_append]
  after_results_simp

/-- The region's right operand: the weights narrowed to bf16. -/
theorem head_v7 (V : Valuation τ sig (Elt F)) :
    StableHlo.after (List.flatten [hostOps0 (F := F)]) V (Proc.devRef .tc main_v7)
      = (truncf .bf16 (V (Proc.devRef .tc main_arg7)) bitsLt_bf16_f32 : (⟨S4096x12288, .bf16⟩ : BufTy).Contents (Elt F)) := by
  simp only [List.flatten_cons, List.flatten_nil, List.append_nil, List.cons_append, List.nil_append]
  after_results_simp

/-- The lines before the region leave the gate weights as they were. -/
theorem head_arg8 (V : Valuation τ sig (Elt F)) :
    StableHlo.after (List.flatten [hostOps0 (F := F)]) V (Proc.devRef .tc main_arg8) = V (Proc.devRef .tc main_arg8) := by
  simp only [List.flatten_cons, List.flatten_nil, List.append_nil, List.cons_append, List.nil_append]
  after_results_simp

/-- The lines before the region leave the bias rows as they were. -/
theorem head_arg9 (V : Valuation τ sig (Elt F)) :
    StableHlo.after (List.flatten [hostOps0 (F := F)]) V (Proc.devRef .tc main_arg9) = V (Proc.devRef .tc main_arg9) := by
  simp only [List.flatten_cons, List.flatten_nil, List.append_nil, List.cons_append, List.nil_append]
  after_results_simp

/-- The lines before the region leave the gate biases as they were. -/
theorem head_arg10 (V : Valuation τ sig (Elt F)) :
    StableHlo.after (List.flatten [hostOps0 (F := F)]) V (Proc.devRef .tc main_arg10) = V (Proc.devRef .tc main_arg10) := by
  simp only [List.flatten_cons, List.flatten_nil, List.append_nil, List.cons_append, List.nil_append]
  after_results_simp

end Cert.HostSide

end
-- ==== Proof.HostTail.lean ====
/- The kernel program's lines after the pallas region, evaluated: they are the epilogue. -/
import proofs.«169880_j67190468378873_2_alg».proof.Proof.Gen.KernelIdeal
import proofs.«169880_j67190468378873_2_alg».proof.Proof.Gen.KernelIdeal.Launch
import proofs.«169880_j67190468378873_2_alg».proof.Proof.HostEpi

noncomputable section

namespace Cert.HostSide

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- From any contents, the lines after the region leave in the result buffer the epilogue of: the region's output, the gate
    product of the narrowed features by the narrowed gate weights, the kept relations and classes, and the two bias tables. -/
theorem tail_eval (V : Valuation τ sig (Elt F)) :
    StableHlo.after (List.flatten [hostOps1 (F := F), hostOps1_1 (F := F)]) V (Proc.devRef .tc main_v80)
      = epi (F := F) (V (Proc.devRef .tc main_v8))
          (Host.dotGeneral dot_S2048x4096_S4096x3_S2048x3_1_0_0_1_n_n none (V (Proc.devRef .tc main_v6))
            ((truncf .bf16 (V (Proc.devRef .tc main_arg8)) bitsLt_bf16_f32 : (⟨S4096x3, .bf16⟩ : BufTy).Contents (Elt F))))
          (V (Proc.devRef .tc main_v2)) (V (Proc.devRef .tc main_v5)) (V (Proc.devRef .tc main_arg9)) (V (Proc.devRef .tc main_arg10)) := by
  simp only [List.flatten_cons, List.flatten_nil, List.append_nil, List.cons_append, List.nil_append]
  after_results_simp
  rfl

end Cert.HostSide

end
-- ==== Proof.HostBridge.lean ====
/- The host side at the ideal instance: the kernel program's lines around the pallas region, applied to the region's
   result, compute the reference program's result. -/
import proofs.«169880_j67190468378873_2_alg».proof.Proof.HostEpi
import proofs.«169880_j67190468378873_2_alg».proof.Proof.HostHead
import proofs.«169880_j67190468378873_2_alg».proof.Proof.HostTail
import Idealize.ShloMosaic.Lib.Pipeline.FrameSuffix
import Idealize.ShloMosaic.Lib.ValueIdx

noncomputable section

namespace Cert.HostSide

open Idealize.ShloMosaic Idealize.ShloMosaic.TcCoe Idealize.SL.Sem Idealize.ShloMosaic.StableHlo

/-- The epilogue of equal arguments. -/
theorem epi_congr {F : FTy → Type} [FloatOps F]
    {C C' : (⟨Cert.ReferenceIdeal.S2048x12288, .f32⟩ : BufTy).Contents (Elt F)} {G G' : (⟨Cert.ReferenceIdeal.S2048x3, .f32⟩ : BufTy).Contents (Elt F)}
    {R R' : (⟨Cert.ReferenceIdeal.S1280x3, .i32⟩ : BufTy).Contents (Elt F)} {P P' : (⟨Cert.ReferenceIdeal.S1280, .i32⟩ : BufTy).Contents (Elt F)}
    {BL BL' : (⟨Cert.ReferenceIdeal.S81x4096, .f32⟩ : BufTy).Contents (Elt F)} {BG BG' : (⟨Cert.ReferenceIdeal.S81x1, .f32⟩ : BufTy).Contents (Elt F)}
    (hC : C = C') (hG : G = G') (hR : R = R') (hP : P = P') (hBL : BL = BL') (hBG : BG = BG') :
    epi (F := F) C G R P BL BG = epi (F := F) C' G' R' P' BL' BG' := by
  rw [hC, hG, hR, hP, hBL, hBG]

/-- At the ideal instance the gate product of the narrowed operands is the reference's gate product: a change of float
    format is the identity there. -/
theorem gate_product_eq (x1 : (⟨Cert.ReferenceIdeal.S2048x4096, .f32⟩ : BufTy).Contents (Elt Ideal)) (x8 : (⟨Cert.ReferenceIdeal.S4096x3, .f32⟩ : BufTy).Contents (Elt Ideal)) :
    (Host.dotGeneral (F := Ideal) Cert.KernelIdeal.dot_S2048x4096_S4096x3_S2048x3_1_0_0_1_n_n none
        ((truncf (F := Ideal) .bf16 x1 Cert.KernelIdeal.Gen.bitsLt_bf16_f32 : (⟨Cert.KernelIdeal.S2048x4096, .bf16⟩ : BufTy).Contents (Elt Ideal)))
        ((truncf (F := Ideal) .bf16 x8 Cert.KernelIdeal.Gen.bitsLt_bf16_f32 : (⟨Cert.KernelIdeal.S4096x3, .bf16⟩ : BufTy).Contents (Elt Ideal)))
      : (⟨Cert.KernelIdeal.S2048x3, .f32⟩ : BufTy).Contents (Elt Ideal))
      = Cert.ReferenceIdeal.Read.val_main_v8 (F := Ideal) x1 x8 := rfl

/-- The product the region leaves, entry by entry the sum over the contracted axis, is the reference's big product. -/
theorem big_product_eq (x1 : (⟨Cert.ReferenceIdeal.S2048x4096, .f32⟩ : BufTy).Contents (Elt Ideal)) (x7 : (⟨Cert.ReferenceIdeal.S4096x12288, .f32⟩ : BufTy).Contents (Elt Ideal))
    (C : (⟨Cert.ReferenceIdeal.S2048x12288, .f32⟩ : BufTy).Contents (Elt Ideal))
    (hC : ∀ (r : Fin 2048) (q : Fin 12288), C (ValueIdx.ix2 r q) = ∑ k : Fin 4096, x1 (ValueIdx.ix2 r k) * x7 (ValueIdx.ix2 k q)) :
    C = Cert.ReferenceIdeal.Read.val_main_v6 (F := Ideal) x1 x7 := by
  funext i
  obtain ⟨r, q, rfl⟩ : ∃ (r : Fin 2048) (q : Fin 12288), i = ValueIdx.ix2 r q := ⟨i 0, i 1, ValueIdx.eq_ix2 i⟩
  rw [hC, Cert.ReferenceIdeal.Read.val_main_v6_apply]
  refine Finset.sum_congr rfl fun k _ => ?_
  have el : Cert.ReferenceIdeal.Read.lidx_main_v6 (ValueIdx.ix2 r q) k = ValueIdx.ix2 r k := funext fun a => Fin.ext (by
    match a with
    | ⟨0, _⟩ => rfl
    | ⟨1, _⟩ => rfl)
  have er : Cert.ReferenceIdeal.Read.ridx_main_v6 (ValueIdx.ix2 r q) k = ValueIdx.ix2 k q := funext fun a => Fin.ext (by
    match a with
    | ⟨0, _⟩ => rfl
    | ⟨1, _⟩ => rfl)
  rw [el, er]

/-- The kernel program's host lines, run on what the pallas region leaves (its two operands as the earlier lines made
    them, its output the product of the two, entry by entry the sum over the contracted axis), end with the reference
    program's result, from memories that agree on the arguments. -/
theorem tail_eq_reference
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (A : (w : Fin 3) → Buf (Elt Ideal) ((Cert.KernelIdeal.spec0 w).arr.view.loc (c.tc : Thread Cert.KernelIdeal.nD Cert.KernelIdeal.τ)))
    (h0 : A 0 = StableHlo.after (List.flatten [Cert.KernelIdeal.Gen.hostOps0 (F := Ideal)]) (fun b => m (c, b)) (Proc.devRef .tc Cert.KernelIdeal.main_v6))
    (h1 : A 1 = StableHlo.after (List.flatten [Cert.KernelIdeal.Gen.hostOps0 (F := Ideal)]) (fun b => m (c, b)) (Proc.devRef .tc Cert.KernelIdeal.main_v7))
    (hC : ∀ (r : Fin 2048) (q : Fin 12288), (show FVec Ideal Cert.KernelIdeal.S2048x12288 .f32 from A 2) (ValueIdx.ix2 r q)
        = ∑ k : Fin 4096, (show FVec Ideal Cert.KernelIdeal.S2048x4096 .bf16 from A 0) (ValueIdx.ix2 r k) * (show FVec Ideal Cert.KernelIdeal.S4096x12288 .bf16 from A 1) (ValueIdx.ix2 k q)) :
    StableHlo.after (List.flatten [Cert.KernelIdeal.Gen.hostOps1 (F := Ideal), Cert.KernelIdeal.Gen.hostOps1_1 (F := Ideal)])
        (Pipeline.withArrays Cert.KernelIdeal.spec0 c (StableHlo.after (List.flatten [Cert.KernelIdeal.Gen.hostOps0 (F := Ideal)]) (fun b => m (c, b))) A) (Proc.devRef .tc Cert.KernelIdeal.main_v80)
      = Cert.ReferenceIdeal.Value.res_main_v77 m' c := by
  obtain ⟨-, ha1, ha2, ha3, -, -, -, ha7, ha8, ha9, ha10⟩ := hagree
  have hA0 : A 0 = m' ((c.tc : Thread Cert.ReferenceIdeal.nD Cert.ReferenceIdeal.τ).loc Cert.ReferenceIdeal.main_arg1) := by
    rw [h0, head_v6, ha1]; rfl
  have hA1 : A 1 = m' ((c.tc : Thread Cert.ReferenceIdeal.nD Cert.ReferenceIdeal.τ).loc Cert.ReferenceIdeal.main_arg7) := by
    rw [h1, head_v7, ha7]; rfl
  refine (tail_eval _).trans (Eq.trans ?_ ((Cert.ReferenceIdeal.Read.val_main_v77_eq m' c).trans (ref_eq _ _ _ _ _ _ _)).symm)
  refine epi_congr ?_ ?_ ?_ ?_ ?_ ?_
  · -- the big product
    refine ((Pipeline.withArrays_arr Cert.KernelIdeal.spec0 Cert.KernelIdeal.Gen.launch0.win.arr_inj c _ A 2).trans ?_)
    refine big_product_eq _ _ _ fun r q => ?_
    have h := hC r q
    rw [hA0, hA1] at h
    exact h
  · -- the gate product
    rw [Pipeline.withArrays_arr Cert.KernelIdeal.spec0 Cert.KernelIdeal.Gen.launch0.win.arr_inj c _ A 0, hA0,
      Pipeline.withArrays_of_ne _ c _ _ Cert.KernelIdeal.main_arg8 (by exact (by decide : ∀ w, Pipeline.arrRef Cert.KernelIdeal.spec0 w ≠ Cert.KernelIdeal.main_arg8)),
      head_arg8]
    exact (gate_product_eq _ _).trans (by rw [ha8])
  · rw [Pipeline.withArrays_of_ne _ c _ _ Cert.KernelIdeal.main_v2 (by exact (by decide : ∀ w, Pipeline.arrRef Cert.KernelIdeal.spec0 w ≠ Cert.KernelIdeal.main_v2)), head_v2, ha3]
  · rw [Pipeline.withArrays_of_ne _ c _ _ Cert.KernelIdeal.main_v5 (by exact (by decide : ∀ w, Pipeline.arrRef Cert.KernelIdeal.spec0 w ≠ Cert.KernelIdeal.main_v5)), head_v5, ha2]
  · rw [Pipeline.withArrays_of_ne _ c _ _ Cert.KernelIdeal.main_arg9 (by exact (by decide : ∀ w, Pipeline.arrRef Cert.KernelIdeal.spec0 w ≠ Cert.KernelIdeal.main_arg9)), head_arg9, ha9]
  · rw [Pipeline.withArrays_of_ne _ c _ _ Cert.KernelIdeal.main_arg10 (by exact (by decide : ∀ w, Pipeline.arrRef Cert.KernelIdeal.spec0 w ≠ Cert.KernelIdeal.main_arg10)), head_arg10, ha10]

end Cert.HostSide

end
-- ==== Proof.lean ====
/-
  The certificate: the kernel (a bf16 matrix product accumulated over four blocks of the contraction axis, followed by the
  gather / gate / segment-sum epilogue on the host) against the reference (one f32 matrix product and the same epilogue).
  The three frames: both kernel programs run to the end with their arguments unchanged (the region's frame and the host lines
  around it); the reference is a straight line of host operations. The idealization rewrote nothing. At the ideal instance
  a change of float format is the identity and a sum may be taken in any grouping, so the product array the region leaves is
  the reference's product, and the shared epilogue of equal arrays is equal.
-/
import proofs.«169880_j67190468378873_2_alg».proof.Defs
import proofs.«169880_j67190468378873_2_alg».proof.Proof.Gen.Kernel
import proofs.«169880_j67190468378873_2_alg».proof.Proof.Gen.KernelIdeal
import proofs.«169880_j67190468378873_2_alg».proof.Proof.Gen.ReferenceIdeal
import proofs.«169880_j67190468378873_2_alg».proof.Proof.Gen.Pre_finite_inputs
import proofs.«169880_j67190468378873_2_alg».proof.Proof.Gen.ReferenceIdeal.Run
import proofs.«169880_j67190468378873_2_alg».proof.Proof.Gen.ReferenceIdeal.Read
import proofs.«169880_j67190468378873_2_alg».proof.Proof.KBFrame
import proofs.«169880_j67190468378873_2_alg».proof.Proof.KIResult
import proofs.«169880_j67190468378873_2_alg».proof.Proof.KIValueFinal
import proofs.«169880_j67190468378873_2_alg».proof.Proof.HostBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- An entry of the product array the region leaves is the sum, over the whole contraction axis, of the products of the entries
    of the two operand arrays as the region leaves them (which are the operands as it found them). -/
theorem prod_entry (m : (ℓ : Loc Cert.KernelIdeal.nD Cert.KernelIdeal.τ Cert.KernelIdeal.sig) → Buf (Elt Ideal) ℓ) (c : Dev Cert.KernelIdeal.nD) (r : Fin 2048) (q : Fin 12288) :
    (show FVec Ideal Cert.KernelIdeal.S2048x12288 .f32 from (Cert.KernelIdeal.Hand.dats (F := Ideal) m 0 c).arrAt 2 Cert.KernelIdeal.cfg0.N) (ValueIdx.ix2 r q)
      = ∑ k : Fin 4096, (show FVec Ideal Cert.KernelIdeal.S2048x4096 .bf16 from (Cert.KernelIdeal.Hand.dats (F := Ideal) m 0 c).arrAt 0 Cert.KernelIdeal.cfg0.N) (ValueIdx.ix2 r k)
          * (show FVec Ideal Cert.KernelIdeal.S4096x12288 .bf16 from (Cert.KernelIdeal.Hand.dats (F := Ideal) m 0 c).arrAt 1 Cert.KernelIdeal.cfg0.N) (ValueIdx.ix2 k q) := by
  rw [Cert.KernelIdeal.HandValue.final0 m c, Cert.KernelIdeal.HandValue.final1 m c]
  exact Cert.KernelIdeal.HandValue.final2 m c r q

/-- Both programs end with the same result array: the kernel's is the host lines after the region applied to what the region
    leaves, whose product array is entry by entry the sum over the whole contraction axis; the reference's is its operations'
    composed term; the two agree. -/
theorem algebraic : Cert.algebraic_KernelIdeal_ReferenceIdeal := by
  intro m ρ m' ρ' _ hagree
  refine ⟨fun c => Cert.KernelIdeal.Hand.result (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.HostSide.tail_eq_reference m m' c (hagree c)
    (fun w => (Cert.KernelIdeal.Hand.dats (F := Ideal) m 0 c).arrAt w Cert.KernelIdeal.cfg0.N)
    (Cert.KernelIdeal.HandValue.final0 m c) (Cert.KernelIdeal.HandValue.final1 m c) (prod_entry m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
